-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x512x128 : Shape := ⟨4, ![64, 16, 512, 128]⟩
abbrev S256x512 : Shape := ⟨2, ![256, 512]⟩
abbrev S256 : Shape := ⟨1, ![256]⟩
abbrev S1024x256 : Shape := ⟨2, ![1024, 256]⟩
abbrev S1024 : Shape := ⟨1, ![1024]⟩
abbrev S32x256 : Shape := ⟨2, ![32, 256]⟩
abbrev S32 : Shape := ⟨1, ![32]⟩
abbrev S_ : Shape := ⟨0, ![]⟩

class Facts : Prop where
  bcast_S_S64x16x512x128 : S_.BroadcastsInDim S64x16x512x128 (![] : Fin 0 → Fin S64x16x512x128.rank)
  reducesTo_S64x16x512x128_S_d0_1_2_3 : S64x16x512x128.ReducesTo [0, 1, 2, 3] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32x256 .f32) (main_arg8 : FVec F S32 .f32) (main_v33 : IVec S_ 1) : IVec S_ 1 :=
  let main_v34 : FVec F S32x256 .f32 := Host.absf main_arg7
  let main_cst_12 : FVec F S_ .f32 := constant S_ .f32 0x7F800000#32
  let main_v35 : FVec F S32x256 .f32 := broadcastInDim S32x256 ![] bcast_S_S32x256 main_cst_12
  let main_v36 : IVec S32x256 1 := cmpf .olt main_v34 main_v35
  let main_c_13 : IVec S_ 1 := constantI S_ 1 1#1
  let main_v37 : IVec S_ 1 := (fun x v => Host.reduce IntOp.andi x v reducesTo_S32x256_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S1024x256 .f32) (main_arg5 : FVec F S1024 .f32) (main_arg6 : FVec F S1024 .f32) (main_arg7 : FVec F S32x256 .f32) (main_arg8 : FVec F S32 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S64x16x512x128 .f32) (main_arg1 : FVec F S256x512 .f32) (main_arg2 : FVec F S256 .f32) (main_arg3 : FVec F S1024x256 .f32) (main_arg4 : FVec F S1024x256 .f32) (main_arg5 : FVec F S1024 .f32) (main_arg6 : FVec F S1024 .f32) (main_arg7 : FVec F S32x256 .f32) (main_arg8 : FVec F S32 .f32) : IVec S_ 1 :=
  let main_v0 : FVec F S64x16x512x128 .f32 := Host.absf main_arg0
  let main_cst : FVec F S_ .f32 := constant S_ .f32 0x7F800000#32
  let main_v1 : FVec F S64x16x512x128 .f32 := broadcastInDim S64x16x512x128 ![] bcast_S_S64x16x512x128 main_cst
  let main_v2 : IVec S64x16x512x128 1 := cmpf .olt main_v0 main_v1
  let main_c : IVec S_ 1 := constantI S_ 1 1#1
  let main_v3 : IVec S_ 1 := (fun x v => Host.reduce IntOp.andi x v reducesTo_S64x16x512x128_S_d0_1_2_3 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_v13 main_v16
-- ==== Kernel.lean ====
abbrev S64x16x512x128 : Shape := ⟨4, ![64, 16, 512, 128]⟩
abbrev S256x512 : Shape := ⟨2, ![256, 512]⟩
abbrev S256 : Shape := ⟨1, ![256]⟩
abbrev S1024x256 : Shape := ⟨2, ![1024, 256]⟩
abbrev S1024 : Shape := ⟨1, ![1024]⟩
abbrev S32x256 : Shape := ⟨2, ![32, 256]⟩
abbrev S32 : Shape := ⟨1, ![32]⟩
abbrev S64x1x512x1 : Shape := ⟨4, ![64, 1, 512, 1]⟩
abbrev S64x512 : Shape := ⟨2, ![64, 512]⟩
abbrev S1x256 : Shape := ⟨2, ![1, 256]⟩
abbrev S1x1024 : Shape := ⟨2, ![1, 1024]⟩
abbrev S1x32 : Shape := ⟨2, ![1, 32]⟩
abbrev S64x32 : Shape := ⟨2, ![64, 32]⟩
abbrev S64x256 : Shape := ⟨2, ![64, 256]⟩
abbrev S256x256 : Shape := ⟨2, ![256, 256]⟩
abbrev S512x256 : Shape := ⟨2, ![512, 256]⟩
abbrev S1x512 : Shape := ⟨2, ![1, 512]⟩
abbrev S64 : Shape := ⟨1, ![64]⟩
abbrev S64x1 : Shape := ⟨2, ![64, 1]⟩

abbrev nBuf : Space → Nat
  | .hbm => 16
  | .vmem => 9
  | .smem => 0
  | _ => 0

abbrev bufTy : (tb : Table) → Fin (tcTables nBuf tb) → BufTy
  | .hbm, ⟨0, _⟩ => ⟨S64x16x512x128, .f32⟩
  | .hbm, ⟨1, _⟩ => ⟨S256x512, .f32⟩
  | .hbm, ⟨2, _⟩ => ⟨S256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S32x256, .f32⟩
  | .hbm, ⟨8, _⟩ => ⟨S32, .f32⟩
  | .hbm, ⟨9, _⟩ => ⟨S64x1x512x1, .f32⟩
  | .hbm, ⟨10, _⟩ => ⟨S64x512, .f32⟩
  | .hbm, ⟨11, _⟩ => ⟨S1x256, .f32⟩
  | .hbm, ⟨12, _⟩ => ⟨S1x1024, .f32⟩
  | .hbm, ⟨13, _⟩ => ⟨S1x1024, .f32⟩
  | .hbm, ⟨14, _⟩ => ⟨S1x32, .f32⟩
  | .hbm, ⟨15, _⟩ => ⟨S64x32, .f32⟩
  | .local _ .vmem, ⟨0, _⟩ => ⟨S64x512, .f32⟩
  | .local _ .vmem, ⟨1, _⟩ => ⟨S256x512, .f32⟩
  | .local _ .vmem, ⟨2, _⟩ => ⟨S1x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S32x256, .f32⟩
  | .local _ .vmem, ⟨7, _⟩ => ⟨S1x32, .f32⟩
  | .local _ .vmem, ⟨8, _⟩ => ⟨S64x32, .f32⟩
  | _, _ => ⟨S64x16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  slices_S64x16x512x128_S64x1x512x1_0_15_0_127 : S64x16x512x128.Slices ![0, 15, 0, 127] S64x1x512x1
  shapeCasts_S64x1x512x1_S64x512 : S64x1x512x1.ShapeCasts S64x512
  shapeCasts_S256_S1x256 : S256.ShapeCasts S1x256
  shapeCasts_S1024_S1x1024 : S1024.ShapeCasts S1x1024
  shapeCasts_S32_S1x32 : S32.ShapeCasts S1x32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S1024x256_S256x256_0_0 : ∀ a, (![0, 0] : Fin 2 → Nat) a + S256x256.size a ≤ S1024x256.size a
  h_S256x256 : 0 < S256x256.numel
  inb_S1024x256_S512x256_512_0 : ∀ a, (![512, 0] : Fin 2 → Nat) a + S512x256.size a ≤ S1024x256.size a
  h_S512x256 : 0 < S512x256.numel
  inb_S1x1024_S1x256_0_0 : ∀ a, (![0, 0] : Fin 2 → Nat) a + S1x256.size a ≤ S1x1024.size a
  inb_S1x1024_S1x512_0_512 : ∀ a, (![0, 512] : Fin 2 → Nat) a + S1x512.size a ≤ S1x1024.size a
  h_S1x512 : 0 < S1x512.numel
  shapeCasts_S1x512_S1x512 : S1x512.ShapeCasts S1x512
  broadcasts_S1x512_S64x512 : S1x512.Broadcasts S64x512
  slices_S64x512_o0_0_S64x256 : S64x512.Slices ![0, 0] S64x256
  slices_S64x512_o0_256_S64x256 : S64x512.Slices ![0, 256] S64x256
  inb_S32x256_S32x256_0_0 : ∀ a, (![0, 0] : Fin 2 → Nat) a + S32x256.size a ≤ S32x256.size a
  h_S32x256 : 0 < S32x256.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  reduces_S64x32_S64 : S64x32.Reduces [1] S64
  shapeCasts_S64_S64x1 : S64.ShapeCasts S64x1
  broadcasts_S64x1_S64x32 : S64x1.Broadcasts S64x32
  inb_S64x32_S64x32_0_0 : ∀ a, (![0, 0] : Fin 2 → Nat) a + S64x32.size a ≤ S64x32.size a
  h_S64x32 : 0 < S64x32.numel
  dot_S64x512_S256x512_S64x256_1_1_0_0_n_n_wf : DotDims.WF S64x512 S256x512 S64x256 [1] [1] [0] [0] [] []
  dot_S64x256_S256x256_S64x256_1_1_0_0_n_n_wf : DotDims.WF S64x256 S256x256 S64x256 [1] [1] [0] [0] [] []
  dot_S64x256_S512x256_S64x512_1_1_0_0_n_n_wf : DotDims.WF S64x256 S512x256 S64x512 [1] [1] [0] [0] [] []
  dot_S64x256_S32x256_S64x32_1_1_0_0_n_n_wf : DotDims.WF S64x256 S32x256 S64x32 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S32x256.size a
  hwx0_6 : ∀ i : grid0.Coords, EltTy.bits .f32 = 32 ∨ (Rect.block (s := S32x256) S32x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .f32 = 32 ∨ (Rect.block (s := S64x32) S64x32.size (cc0_transform_8 i) (hinb0_8 i)).WholeWords (EltTy.packing .f32)

variable [Facts₀]

def dot_S64x512_S256x512_S64x256_1_1_0_0_n_n : DotDims S64x512 S256x512 S64x256 where
  lhsContracting := [1]
  rhsContracting := [1]
  lhsNonContracting := [0]
  rhsNonContracting := [0]
  lhsBatch := []
  rhsBatch := []
  wf := dot_S64x512_S256x512_S64x256_1_1_0_0_n_n_wf
def dot_S64x256_S256x256_S64x256_1_1_0_0_n_n : DotDims S64x256 S256x256 S64x256 where
  lhsContracting := [1]
  rhsContracting := [1]
  lhsNonContracting := [0]
  rhsNonContracting := [0]
  lhsBatch := []
  rhsBatch := []
  wf := dot_S64x256_S256x256_S64x256_1_1_0_0_n_n_wf
def dot_S64x256_S512x256_S64x512_1_1_0_0_n_n : DotDims S64x256 S512x256 S64x512 where
  lhsContracting := [1]
  rhsContracting := [1]
  lhsNonContracting := [0]
  rhsNonContracting := [0]
  lhsBatch := []
  rhsBatch := []
  wf := dot_S64x256_S512x256_S64x512_1_1_0_0_n_n_wf
def dot_S64x256_S32x256_S64x32_1_1_0_0_n_n : DotDims S64x256 S32x256 S64x32 where
  lhsContracting := [1]
  rhsContracting := [1]
  lhsNonContracting := [0]
  rhsNonContracting := [0]
  lhsBatch := []
  rhsBatch := []
  wf := dot_S64x256_S32x256_S64x32_1_1_0_0_n_n_wf

abbrev win0_0 : Pipeline.Window sig grid0 :=
  Pipeline.Window.ofSpec (Memref.whole main_v1) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S64x32.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x16x512x128 : Shape := ⟨4, ![64, 16, 512, 128]⟩
abbrev S256x512 : Shape := ⟨2, ![256, 512]⟩
abbrev S256 : Shape := ⟨1, ![256]⟩
abbrev S1024x256 : Shape := ⟨2, ![1024, 256]⟩
abbrev S1024 : Shape := ⟨1, ![1024]⟩
abbrev S32x256 : Shape := ⟨2, ![32, 256]⟩
abbrev S32 : Shape := ⟨1, ![32]⟩
abbrev S64x16x128x512 : Shape := ⟨4, ![64, 16, 128, 512]⟩
abbrev S131072x512 : Shape := ⟨2, ![131072, 512]⟩
abbrev S512x256 : Shape := ⟨2, ![512, 256]⟩
abbrev S131072x256 : Shape := ⟨2, ![131072, 256]⟩
abbrev S1x256 : Shape := ⟨2, ![1, 256]⟩
abbrev S_ : Shape := ⟨0, ![]⟩
abbrev S256x1024 : Shape := ⟨2, ![256, 1024]⟩
abbrev S131072x1024 : Shape := ⟨2, ![131072, 1024]⟩
abbrev S1x1024 : Shape := ⟨2, ![1, 1024]⟩
abbrev S256x32 : Shape := ⟨2, ![256, 32]⟩
abbrev S131072x32 : Shape := ⟨2, ![131072, 32]⟩
abbrev S1x32 : Shape := ⟨2, ![1, 32]⟩
abbrev S131072 : Shape := ⟨1, ![131072]⟩
abbrev S131072x1 : Shape := ⟨2, ![131072, 1]⟩
abbrev S64x2048x32 : Shape := ⟨3, ![64, 2048, 32]⟩
abbrev S64x1x32 : Shape := ⟨3, ![64, 1, 32]⟩
abbrev S64x32 : Shape := ⟨2, ![64, 32]⟩

abbrev nBuf : Space → Nat
  | .hbm => 74
  | .vmem => 0
  | .smem => 0
  | _ => 0

abbrev bufTy : (tb : Table) → Fin (tcTables nBuf tb) → BufTy
  | .hbm, ⟨0, _⟩ => ⟨S64x16x512x128, .f32⟩
  | .hbm, ⟨1, _⟩ => ⟨S256x512, .f32⟩
  | .hbm, ⟨2, _⟩ => ⟨S256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S32x256, .f32⟩
  | .hbm, ⟨8, _⟩ => ⟨S32, .f32⟩
  | .hbm, ⟨9, _⟩ => ⟨S64x16x128x512, .f32⟩
  | .hbm, ⟨10, _⟩ => ⟨S131072x512, .f32⟩
  | .hbm, ⟨11, _⟩ => ⟨S512x256, .f32⟩
  | .hbm, ⟨12, _⟩ => ⟨S131072x256, .f32⟩
  | .hbm, ⟨13, _⟩ => ⟨S1x256, .f32⟩
  | .hbm, ⟨14, _⟩ => ⟨S131072x256, .f32⟩
  | .hbm, ⟨15, _⟩ => ⟨S131072x256, .f32⟩
  | .hbm, ⟨16, _⟩ => ⟨S_, .f32⟩
  | .hbm, ⟨17, _⟩ => ⟨S131072x256, .f32⟩
  | .hbm, ⟨18, _⟩ => ⟨S131072x256, .f32⟩
  | .hbm, ⟨19, _⟩ => ⟨S256x1024, .f32⟩
  | .hbm, ⟨20, _⟩ => ⟨S131072x1024, .f32⟩
  | .hbm, ⟨21, _⟩ => ⟨S1024, .f32⟩
  | .hbm, ⟨22, _⟩ => ⟨S1x1024, .f32⟩
  | .hbm, ⟨23, _⟩ => ⟨S131072x1024, .f32⟩
  | .hbm, ⟨24, _⟩ => ⟨S131072x1024, .f32⟩
  | .hbm, ⟨25, _⟩ => ⟨S131072x256, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S131072x256, .f32⟩
  | .hbm, ⟨31, _⟩ => ⟨S_, .f32⟩
  | .hbm, ⟨32, _⟩ => ⟨S131072x256, .f32⟩
  | .hbm, ⟨33, _⟩ => ⟨S131072x256, .f32⟩
  | .hbm, ⟨34, _⟩ => ⟨S_, .f32⟩
  | .hbm, ⟨35, _⟩ => ⟨S131072x256, .f32⟩
  | .hbm, ⟨36, _⟩ => ⟨S131072x256, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S_, .f32⟩
  | .hbm, ⟨42, _⟩ => ⟨S131072x256, .f32⟩
  | .hbm, ⟨43, _⟩ => ⟨S131072x256, .f32⟩
  | .hbm, ⟨44, _⟩ => ⟨S_, .f32⟩
  | .hbm, ⟨45, _⟩ => ⟨S131072x256, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S_, .f32⟩
  | .hbm, ⟨50, _⟩ => ⟨S131072x256, .f32⟩
  | .hbm, ⟨51, _⟩ => ⟨S131072x256, .f32⟩
  | .hbm, ⟨52, _⟩ => ⟨S256x32, .f32⟩
  | .hbm, ⟨53, _⟩ => ⟨S131072x32, .f32⟩
  | .hbm, ⟨54, _⟩ => ⟨S1x32, .f32⟩
  | .hbm, ⟨55, _⟩ => ⟨S131072x32, .f32⟩
  | .hbm, ⟨56, _⟩ => ⟨S131072x32, .f32⟩
  | .hbm, ⟨57, _⟩ => ⟨S_, .f32⟩
  | .hbm, ⟨58, _⟩ => ⟨S131072, .f32⟩
  | .hbm, ⟨59, _⟩ => ⟨S_, .f32⟩
  | .hbm, ⟨60, _⟩ => ⟨S131072, .f32⟩
  | .hbm, ⟨61, _⟩ => ⟨S131072, .f32⟩
  | .hbm, ⟨62, _⟩ => ⟨S131072x1, .f32⟩
  | .hbm, ⟨63, _⟩ => ⟨S131072x32, .f32⟩
  | .hbm, ⟨64, _⟩ => ⟨S131072x32, .f32⟩
  | .hbm, ⟨65, _⟩ => ⟨S131072x32, .f32⟩
  | .hbm, ⟨66, _⟩ => ⟨S_, .f32⟩
  | .hbm, ⟨67, _⟩ => ⟨S131072, .f32⟩
  | .hbm, ⟨68, _⟩ => ⟨S131072x1, .f32⟩
  | .hbm, ⟨69, _⟩ => ⟨S131072x32, .f32⟩
  | .hbm, ⟨70, _⟩ => ⟨S131072x32, .f32⟩
  | .hbm, ⟨71, _⟩ => ⟨S64x2048x32, .f32⟩
  | .hbm, ⟨72, _⟩ => ⟨S64x1x32, .f32⟩
  | .hbm, ⟨73, _⟩ => ⟨S64x32, .f32⟩
  | _, _ => ⟨S64x16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call1_cst : Ref sig .tc := ⟨.hbm, 49, rfl⟩
abbrev main_call1_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  transposes_S64x16x512x128_S64x16x128x512_0_1_3_2 : S64x16x512x128.Transposes [0, 1, 3, 2] S64x16x128x512
  shapeCasts_S64x16x128x512_S131072x512 : S64x16x128x512.ShapeCasts S131072x512
  transposes_S256x512_S512x256_1_0 : S256x512.Transposes [1, 0] S512x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  transposes_S32x256_S256x32_1_0 : S32x256.Transposes [1, 0] S256x32
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  reducesTo_S131072x32_S131072_d1 : S131072x32.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x32_0_1 : S131072x1.BroadcastsInDim S131072x32 (![0, 1] : Fin 2 → Fin S131072x32.rank)
  shapeCasts_S131072x32_S64x2048x32 : S131072x32.ShapeCasts S64x2048x32
  slices_S64x2048x32_S64x1x32_0_2047_0 : S64x2048x32.Slices ![0, 2047, 0] S64x1x32
  shapeCasts_S64x1x32_S64x32 : S64x1x32.ShapeCasts S64x32
  dot_S131072x512_S512x256_S131072x256_1_0_0_1_n_n_wf : DotDims.WF S131072x512 S512x256 S131072x256 [1] [0] [0] [1] [] []
  dot_S131072x256_S256x1024_S131072x1024_1_0_0_1_n_n_wf : DotDims.WF S131072x256 S256x1024 S131072x1024 [1] [0] [0] [1] [] []
  dot_S131072x256_S256x32_S131072x32_1_0_0_1_n_n_wf : DotDims.WF S131072x256 S256x32 S131072x32 [1] [0] [0] [1] [] []

variable [Facts₀]

def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x256_S256x32_S131072x32_1_0_0_1_n_n : DotDims S131072x256 S256x32 S131072x32 where
  lhsContracting := [1]
  rhsContracting := [0]
  lhsNonContracting := [0]
  rhsNonContracting := [1]
  lhsBatch := []
  rhsBatch := []
  wf := dot_S131072x256_S256x32_S131072x32_1_0_0_1_n_n_wf

class Facts : Prop extends Facts₀ where

variable [Facts]
-- ==== Proof.Spec.lean ====
/-
  One row through the network, over the extended reals.

  A row `r` of 512 numbers goes through a dense layer with a ReLU (256 units), then ONE step of an LSTM whose
  hidden and cell states start at zero — so the recurrent weights meet a zero vector and the forget gate
  multiplies a zero cell: neither plays a part, and the step is
      c = σ(i) · tanh(g),   h = σ(o) · tanh(c)
  with the input, cell and output gates' pre-activations rows 0–255, 512–767 and 768–1023 of one affine map
  (`gate`) of the hidden layer —, then a ReLU, a dense layer to 32 logits, and a softmax over the 32, taken
  the stable way: the row's maximum is subtracted before exponentiating.

  Every stage is a function of the row alone: no stage reads another row. That is the whole reason the two
  programs of this certificate agree — one evaluates the network on the 64 rows it needs, the other on 131072
  rows of which it keeps 64.

  σ is `Ideal.logistic`, `x ↦ 1 / (1 + e⁻ˣ)` with the extended reals' conventions at the infinities; written
  out with the pattern of `1.0` for the two ones it is the same function (`logistic_spelt`).
-/
import Idealize.ShloMosaic.PureOps.Ideal
import Idealize.ShloMosaic.PureOps.Ideal.Laws
import Idealize.ShloMosaic.PureOps.IdealRules
import Idealize.ShloMosaic.Lib.ValueIdx

noncomputable section

namespace Cert.LstmRow

open Idealize.ShloMosaic

/-- The f32 patterns of zero and of minus infinity, kept as patterns: both programs write the same words. -/
abbrev zero32 : EReal := Ideal.ofBits .f32 0x00000000#32
abbrev ninf32 : EReal := Ideal.ofBits .f32 0xFF800000#32

/-- The f32 pattern `0x3F800000` is the number one. -/
theorem one32 : Ideal.ofBits .f32 0x3F800000#32 = 1 := IdealRules.sign_bit.ideal_onePat .f32

/-- The logistic function spelt out with the pattern of one is the logistic function. -/
theorem logistic_spelt (x : EReal) :
    Ideal.div (Ideal.ofBits .f32 0x3F800000#32) (Ideal.ofBits .f32 0x3F800000#32 + Ideal.exp (-x)) = Ideal.logistic x := by
  rw [one32]; rfl

/-! ## The three building blocks -/

/-- An affine map read at one output: `h · Wₙ + bₙ`, the weights stored one ROW per output. -/
def dense {K N : Nat} (W : Fin N → Fin K → EReal) (b : Fin N → EReal) (h : Fin K → EReal) (n : Fin N) : EReal :=
  (∑ k : Fin K, h k * W n k) + b n

/-- The ReLU: the maximum with zero. -/
def relu (x : EReal) : EReal := max x zero32

/-- The maximum of 32 numbers, from minus infinity (and once more against minus infinity, as both programs do). -/
def maxOf (l : Fin 32 → EReal) : EReal := max ninf32 ((Finset.univ : Finset (Fin 32)).fold max ninf32 l)

/-- The softmax of 32 numbers, the stable way: the exponentials of the differences to the maximum, each over
    their sum. -/
def softmax (l : Fin 32 → EReal) (j : Fin 32) : EReal :=
  Ideal.div (Ideal.exp (l j - maxOf l)) (∑ j' : Fin 32, Ideal.exp (l j' - maxOf l))

/-- Rows 0–255, 512–767 and 768–1023 of the gates' affine map: the input, cell and output gates. (Rows 256–511,
    the forget gate, are never read.) -/
def rowI (k : Fin 256) : Fin 1024 := ⟨k.val, by have := k.isLt; omega⟩
def rowG (k : Fin 256) : Fin 1024 := ⟨512 + k.val, by have := k.isLt; omega⟩
def rowO (k : Fin 256) : Fin 1024 := ⟨768 + k.val, by have := k.isLt; omega⟩

/-! ## The network on one row -/

section
variable (W1 : Fin 256 → Fin 512 → EReal) (b1 : Fin 256 → EReal)
  (Wih : Fin 1024 → Fin 256 → EReal) (bih bhh : Fin 1024 → EReal)
  (W3 : Fin 32 → Fin 256 → EReal) (b3 : Fin 32 → EReal)
  (r : Fin 512 → EReal)

/-- The hidden layer. -/
def hid (k : Fin 256) : EReal := relu (dense W1 b1 r k)

/-- The gates' pre-activations; the two bias vectors are added first (the recurrent term is a product with zero). -/
def gate (n : Fin 1024) : EReal := dense Wih (fun n => bih n + bhh n) (hid W1 b1 r) n

/-- The cell after the step from a zero cell: `σ(i) · tanh(g)`. -/
def cell (k : Fin 256) : EReal :=
  Ideal.logistic (gate W1 b1 Wih bih bhh r (rowI k)) * Ideal.tanh (gate W1 b1 Wih bih bhh r (rowG k))

/-- The step's output through the ReLU: `relu (σ(o) · tanh(c))`. -/
def hout (k : Fin 256) : EReal :=
  relu (Ideal.logistic (gate W1 b1 Wih bih bhh r (rowO k)) * Ideal.tanh (cell W1 b1 Wih bih bhh r k))

/-- The logits. -/
def logit (j : Fin 32) : EReal := dense W3 b3 (hout W1 b1 Wih bih bhh r) j

/-- The network's answer for the row: the softmax of its logits. -/
def out (j : Fin 32) : EReal := softmax (logit W1 b1 Wih bih bhh W3 b3 r) j

end

/-! ## The network on the rows the result keeps -/

open Idealize.ShloMosaic.ValueIdx in
/-- The result, a [64, 32] array, as ONE function of the argument arrays: entry `(p, j)` is the network's answer
    `j` for the row `x[p, 15, ·, 127]` — the last of the 16 matrices of patient `p`, its last column. The weight
    matrices are read one row per output unit, as they are stored. -/
def network (X : (⟨4, ![64, 16, 512, 128]⟩ : Shape).Idx → EReal) (W1 : (⟨2, ![256, 512]⟩ : Shape).Idx → EReal)
    (b1 : (⟨1, ![256]⟩ : Shape).Idx → EReal) (Wih : (⟨2, ![1024, 256]⟩ : Shape).Idx → EReal)
    (bih bhh : (⟨1, ![1024]⟩ : Shape).Idx → EReal) (W3 : (⟨2, ![32, 256]⟩ : Shape).Idx → EReal)
    (b3 : (⟨1, ![32]⟩ : Shape).Idx → EReal) : (⟨2, ![64, 32]⟩ : Shape).Idx → EReal :=
  fun i => out (fun k a => W1 (ix2 k a)) (fun k => b1 (ix1 k)) (fun n k => Wih (ix2 n k)) (fun n => bih (ix1 n))
    (fun n => bhh (ix1 n)) (fun j k => W3 (ix2 j k)) (fun j => b3 (ix1 j)) (fun a => X (ix4 (i 0) 15 a 127)) (i 1)

end Cert.LstmRow

end
-- ==== Proof.RefRows.lean ====
/-
  The reference, stage by stage, is the network of Spec.lean on each of its 131072 rows.

  The reference exchanges the input's last two axes and flattens (patient, matrix, column) into one row axis of
  64 · 16 · 128 = 131072 rows of 512 numbers, runs the network on ALL of them — every operation works row by row:
  the three matrix products contract over a row's own entries, the biases are broadcast down the rows, the
  activations are pointwise, the softmax's maximum and sum run along a row —, views the [131072, 32] answers as
  [64, 2048, 32] and keeps, for each patient, the last of its 2048 rows.

  So each lemma below reads one stage at row `n` and column `k` and finds the corresponding stage of
  `Cert.LstmRow` on `row x0 n`: the products as sums over the contracted coordinate with the weight matrices
  read one row per output unit (the reference contracts against their transposes), the sigmoid spelt
  `1 / (1 + e⁻ˣ)` as `Ideal.logistic`, the slices of the 1024 gate pre-activations as rows 0–255, 512–767
  and 768–1023 of one affine map, the maximum over a row as a fold of `max` and the sum over a row as a
  finite sum from zero. Then `row_last`: row `2048 p + 2047` is `x[p, 15, ·, 127]`, by the arithmetic of
  the flattening; and `value`: the reference's result is `network` of the argument arrays.
-/
import proofs.«131758_j39917426049717_2_alg».proof.Proof.Gen.ReferenceIdeal.Read
import proofs.«131758_j39917426049717_2_alg».proof.Proof.Spec

noncomputable section

namespace Cert.ReferenceIdeal.Rows

open Cert.ReferenceIdeal Cert.ReferenceIdeal.Gen Cert.ReferenceIdeal.Read Cert.LstmRow Idealize.ShloMosaic Idealize.ShloMosaic.ValueIdx

/-- Two indices of a rank-1 / rank-2 shape are equal when their coordinates are, and here they compute. -/
macro "idx1" : tactic => `(tactic| (funext a; apply Fin.ext; match a with | ⟨0, _⟩ => rfl))
macro "idx2" : tactic => `(tactic| (funext a; apply Fin.ext; match a with | ⟨0, _⟩ => rfl | ⟨1, _⟩ => rfl))

variable (x0 : (⟨S64x16x512x128, .f32⟩ : BufTy).Contents (Elt Ideal)) (x1 : (⟨S256x512, .f32⟩ : BufTy).Contents (Elt Ideal))
  (x2 : (⟨S256, .f32⟩ : BufTy).Contents (Elt Ideal)) (x3 : (⟨S1024x256, .f32⟩ : BufTy).Contents (Elt Ideal))
  (x5 x6 : (⟨S1024, .f32⟩ : BufTy).Contents (Elt Ideal)) (x7 : (⟨S32x256, .f32⟩ : BufTy).Contents (Elt Ideal))
  (x8 : (⟨S32, .f32⟩ : BufTy).Contents (Elt Ideal))

/-- Row `n` of the input once its last two axes are exchanged and its first three flattened. -/
def row (n : Fin 131072) (a : Fin 512) : EReal := x0 (idx_main_v0 (idx_main_v1 (ix2 n a)))

/-- The weight and bias arrays as functions of their coordinates. -/
abbrev w1 : Fin 256 → Fin 512 → EReal := fun k a => x1 (ix2 k a)
abbrev c1 : Fin 256 → EReal := fun k => x2 (ix1 k)
abbrev wih : Fin 1024 → Fin 256 → EReal := fun n k => x3 (ix2 n k)
abbrev cih : Fin 1024 → EReal := fun n => x5 (ix1 n)
abbrev chh : Fin 1024 → EReal := fun n => x6 (ix1 n)
abbrev w3 : Fin 32 → Fin 256 → EReal := fun j k => x7 (ix2 j k)
abbrev c3 : Fin 32 → EReal := fun j => x8 (ix1 j)

/-! ## Each stage of the reference, at row `n`, is the stage of the network on that row -/

theorem hid_at (n : Fin 131072) (k : Fin 256) :
    val_main_v7 (F := Ideal) x0 x1 x2 (ix2 n k) = hid (w1 x1) (c1 x2) (row x0 n) k := by
  rw [val_main_v7_apply, val_main_v6_apply, val_main_v3_apply, val_main_v5_apply, val_main_v4_apply,
    val_main_call0_v0_apply, val_main_call0_cst_apply]
  unfold hid relu dense
  simp only [Ideal.maximumf_def, Ideal.addf_def, Ideal.ofBits_def]
  refine congrArg₂ max (congrArg₂ (· + ·) (Finset.sum_congr rfl fun a _ => ?_) (congrArg x2 (by idx1))) rfl
  rw [val_main_v1_apply, val_main_v0_apply, val_main_v2_apply]
  exact congrArg₂ (· * ·) (congrArg x0 (congrArg idx_main_v0 (congrArg idx_main_v1 (by idx2)))) (congrArg x1 (by idx2))

theorem gate_at (n : Fin 131072) (q : Fin 1024) :
    val_main_v13 (F := Ideal) x0 x1 x2 x3 x5 x6 (ix2 n q)
      = gate (w1 x1) (c1 x2) (wih x3) (cih x5) (chh x6) (row x0 n) q := by
  rw [val_main_v13_apply, val_main_v9_apply, val_main_v12_apply, val_main_v11_apply, val_main_v10_apply]
  unfold gate dense
  simp only [Ideal.addf_def]
  refine congrArg₂ (· + ·) (Finset.sum_congr rfl fun k _ => ?_)
    (congrArg₂ (· + ·) (congrArg x5 (by idx1)) (congrArg x6 (by idx1)))
  rw [show lidx_main_v9 (ix2 n q) k = ix2 n k from by idx2, hid_at, val_main_v8_apply]
  exact congrArg (_ * ·) (congrArg x3 (by idx2))

/-- The input gate: the reference spells the logistic function out. -/
theorem sigI_at (n : Fin 131072) (k : Fin 256) :
    val_main_v23 (F := Ideal) x0 x1 x2 x3 x5 x6 (ix2 n k)
      = Ideal.logistic (gate (w1 x1) (c1 x2) (wih x3) (cih x5) (chh x6) (row x0 n) (rowI k)) := by
  rw [val_main_v23_apply, val_main_v22_apply, val_main_cst_0_apply, val_main_v21_apply, val_main_v20_apply,
    val_main_cst_apply, val_main_v19_apply, val_main_v18_apply, val_main_v14_apply,
    show idx_main_v14 (ix2 n k) = ix2 n (rowI k) from by idx2, gate_at]
  simp only [Ideal.hostDivf_def, Ideal.addf_def, Ideal.hostUnary_exp_def, Ideal.hostNegf_def, Ideal.negf_def, Ideal.ofBits_def]
  exact logistic_spelt _

theorem tanhG_at (n : Fin 131072) (k : Fin 256) :
    val_main_v24 (F := Ideal) x0 x1 x2 x3 x5 x6 (ix2 n k)
      = Ideal.tanh (gate (w1 x1) (c1 x2) (wih x3) (cih x5) (chh x6) (row x0 n) (rowG k)) := by
  rw [val_main_v24_apply, val_main_v16_apply, show idx_main_v16 (ix2 n k) = ix2 n (rowG k) from by idx2, gate_at]
  rfl

theorem cell_at (n : Fin 131072) (k : Fin 256) :
    val_main_v25 (F := Ideal) x0 x1 x2 x3 x5 x6 (ix2 n k)
      = cell (w1 x1) (c1 x2) (wih x3) (cih x5) (chh x6) (row x0 n) k := by
  rw [val_main_v25_apply, sigI_at, tanhG_at]
  rfl

/-- The output gate, spelt out the same way. -/
theorem sigO_at (n : Fin 131072) (k : Fin 256) :
    val_main_v31 (F := Ideal) x0 x1 x2 x3 x5 x6 (ix2 n k)
      = Ideal.logistic (gate (w1 x1) (c1 x2) (wih x3) (cih x5) (chh x6) (row x0 n) (rowO k)) := by
  rw [val_main_v31_apply, val_main_v30_apply, val_main_cst_2_apply, val_main_v29_apply, val_main_v28_apply,
    val_main_cst_1_apply, val_main_v27_apply, val_main_v26_apply, val_main_v17_apply,
    show idx_main_v17 (ix2 n k) = ix2 n (rowO k) from by idx2, gate_at]
  simp only [Ideal.hostDivf_def, Ideal.addf_def, Ideal.hostUnary_exp_def, Ideal.hostNegf_def, Ideal.negf_def, Ideal.ofBits_def]
  exact logistic_spelt _

theorem hout_at (n : Fin 131072) (k : Fin 256) :
    val_main_v34 (F := Ideal) x0 x1 x2 x3 x5 x6 (ix2 n k)
      = hout (w1 x1) (c1 x2) (wih x3) (cih x5) (chh x6) (row x0 n) k := by
  rw [val_main_v34_apply, val_main_v33_apply, sigO_at, val_main_v32_apply, cell_at, val_main_call1_v0_apply,
    val_main_call1_cst_apply]
  rfl

theorem logit_at (n : Fin 131072) (j : Fin 32) :
    val_main_v39 (F := Ideal) x0 x1 x2 x3 x5 x6 x7 x8 (ix2 n j)
      = logit (w1 x1) (c1 x2) (wih x3) (cih x5) (chh x6) (w3 x7) (c3 x8) (row x0 n) j := by
  rw [val_main_v39_apply, val_main_v36_apply, val_main_v38_apply, val_main_v37_apply]
  unfold logit dense
  simp only [Ideal.addf_def]
  refine congrArg₂ (· + ·) (Finset.sum_congr rfl fun k _ => ?_) (congrArg x8 (by idx1))
  rw [show lidx_main_v36 (ix2 n j) k = ix2 n k from by idx2, hout_at, val_main_v35_apply]
  exact congrArg (_ * ·) (congrArg x7 (by idx2))

/-- The reduction over the 32 logits of a row is the fold of `max` over them, in any order. -/
theorem max_at (n : Fin 131072) :
    val_main_v42 (F := Ideal) x0 x1 x2 x3 x5 x6 x7 x8 (ix1 n)
      = maxOf (logit (w1 x1) (c1 x2) (wih x3) (cih x5) (chh x6) (w3 x7) (c3 x8) (row x0 n)) := by
  have hR : Shape.Reduces S131072x32 [1] S131072 := by decide
  rw [val_main_v42_apply, val_main_v41_apply, val_main_cst_4_apply]
  unfold val_main_v40
  rw [Host.reduce_eq_fold_single FloatOps.maximumf _ _ reducesTo_S131072x32_S131072_d1 hR h_S_ (ix1 n)]
  unfold maxOf
  refine congrArg (max ninf32) (Finset.fold_congr fun (j : Fin 32) _ => ?_)
  show val_main_v39 (F := Ideal) x0 x1 x2 x3 x5 x6 x7 x8 (hR.lift (ix1 n) j) = _
  rw [show hR.lift (ix1 n) j = ix2 n j from by idx2, logit_at]

theorem ex_at (n : Fin 131072) (j : Fin 32) :
    val_main_v46 (F := Ideal) x0 x1 x2 x3 x5 x6 x7 x8 (ix2 n j)
      = Ideal.exp (logit (w1 x1) (c1 x2) (wih x3) (cih x5) (chh x6) (w3 x7) (c3 x8) (row x0 n) j
          - maxOf (logit (w1 x1) (c1 x2) (wih x3) (cih x5) (chh x6) (w3 x7) (c3 x8) (row x0 n))) := by
  rw [val_main_v46_apply, val_main_v45_apply, logit_at, val_main_v44_apply, val_main_v43_apply,
    show idx_main_v43 (idx_main_v44 (ix2 n j)) = ix1 n from by idx1, max_at]
  rfl

theorem sum_at (n : Fin 131072) :
    val_main_v47 (F := Ideal) x0 x1 x2 x3 x5 x6 x7 x8 (ix1 n)
      = ∑ j : Fin 32, Ideal.exp (logit (w1 x1) (c1 x2) (wih x3) (cih x5) (chh x6) (w3 x7) (c3 x8) (row x0 n) j
          - maxOf (logit (w1 x1) (c1 x2) (wih x3) (cih x5) (chh x6) (w3 x7) (c3 x8) (row x0 n))) := by
  rw [val_main_v47_apply, val_main_cst_5_apply]
  simp only [Ideal.ofBits_def, Ideal.ofBits_zero_f32, zero_add]
  refine Finset.sum_congr rfl fun j _ => ?_
  rw [show idx_main_v47 (ix1 n) j = ix2 n j from by idx2, ex_at]

theorem out_at (n : Fin 131072) (j : Fin 32) :
    val_main_v50 (F := Ideal) x0 x1 x2 x3 x5 x6 x7 x8 (ix2 n j)
      = out (w1 x1) (c1 x2) (wih x3) (cih x5) (chh x6) (w3 x7) (c3 x8) (row x0 n) j := by
  rw [val_main_v50_apply, ex_at, val_main_v49_apply, val_main_v48_apply,
    show idx_main_v48 (idx_main_v49 (ix2 n j)) = ix1 n from by idx1, sum_at]
  rfl

/-! ## The rows the result keeps -/

/-- The last of patient `p`'s 2048 rows. -/
def lastRow (p : Fin 64) : Fin 131072 := ⟨p.val * 2048 + 2047, by have := p.isLt; omega⟩

/-- Row `2048 p + 2047` of the flattened input is `x[p, 15, ·, 127]`: the flattening runs over (patient, matrix,
    column) with the column fastest, so the last row of a patient is the last column of its last matrix. -/
theorem row_last (p : Fin 64) : row x0 (lastRow p) = fun a => x0 (ix4 p 15 a 127) := by
  funext a
  unfold row
  refine congrArg x0 (funext fun b => Fin.ext ?_)
  have hp := p.isLt
  have ha := a.isLt
  match b with
  | ⟨0, _⟩ => show ((p.val * 2048 + 2047) * 512 + a.val) / 1048576 = p.val; omega
  | ⟨1, _⟩ => show ((p.val * 2048 + 2047) * 512 + a.val) / 65536 % 16 = 15; omega
  | ⟨2, _⟩ => show ((p.val * 2048 + 2047) * 512 + a.val) % 512 = a.val; omega
  | ⟨3, _⟩ => show ((p.val * 2048 + 2047) * 512 + a.val) / 512 % 128 = 127; omega

/-- Entry `(p, j)` of the result is entry `j` of the softmax of row `2048 p + 2047`: the result is the [131072, 32]
    array viewed [64, 2048, 32], its slice at 2047 on the middle axis. -/
theorem result_at (p : Fin 64) (j : Fin 32) :
    val_main_v53 (F := Ideal) x0 x1 x2 x3 x5 x6 x7 x8 (ix2 p j)
      = out (w1 x1) (c1 x2) (wih x3) (cih x5) (chh x6) (w3 x7) (c3 x8) (fun a => x0 (ix4 p 15 a 127)) j := by
  have e : idx_main_v51 (idx_main_v52 (idx_main_v53 (ix2 p j))) = ix2 (lastRow p) j := by
    funext b
    apply Fin.ext
    have hp := p.isLt
    have hj := j.isLt
    match b with
    | ⟨0, _⟩ => show (((p.val * 32 + j.val) / 32 * 2048 + (2047 + 0)) * 32 + (p.val * 32 + j.val) % 32) / 32 = p.val * 2048 + 2047; omega
    | ⟨1, _⟩ => show (((p.val * 32 + j.val) / 32 * 2048 + (2047 + 0)) * 32 + (p.val * 32 + j.val) % 32) % 32 = j.val; omega
  rw [val_main_v53_apply, val_main_v52_apply, val_main_v51_apply, e, out_at, row_last]

/-- The reference's result array is the network on the kept rows, as one function of the argument arrays. -/
theorem value : val_main_v53 (F := Ideal) x0 x1 x2 x3 x5 x6 x7 x8 = network x0 x1 x2 x3 x5 x6 x7 x8 := by
  funext i
  obtain ⟨p, j, rfl⟩ : ∃ (p : Fin 64) (j : Fin 32), i = ix2 p j := ⟨i 0, i 1, eq_ix2 i⟩
  exact result_at x0 x1 x2 x3 x5 x6 x7 x8 p j

end Cert.ReferenceIdeal.Rows

end
-- ==== Proof.KerPayloads.lean ====
/-
  The kernel's six computed values, each read at one index, over the extended reals.

  Every value the kernel computes between its loads and its one store is a matrix; read at row `p` and column
  `k` each is an explicit expression in the loaded matrices' entries, because every operation on the way is
  either pointwise (sum, product, difference, quotient, maximum, logistic, tanh, exponential, and the format
  changes, which are the identity on extended reals), or a re-layout that reads ONE entry of its operand (a
  cast to the same shape, a one-row matrix repeated down the rows, a column of row values repeated along the
  row, a window of columns), or one of two genuinely collective operations on a row: a matrix product, whose
  entry `(p, n)` is `∑ₖ l (p, k) · r (n, k)` since both operands are contracted along their second axis and the
  accumulator is the zero matrix; and a reduction along the row, a maximum from `-∞` or a sum.

  In the vocabulary of the specification (`dense W b h n = ∑ₖ h k · W n k + b n`, `relu x = max x 0`,
  `softmax`):
  • the hidden layer at `(p, k)` is `relu (dense W₁ b₁ (row p of the input) k)`;
  • the gate pre-activations at `(p, q)`, 512 of them, are `dense` of the loaded 512 weight rows and the sum of the
    two loaded bias rows, applied to row `p` of the hidden layer;
  • two windows of 256 columns of these: columns `256 + k` as they are, columns `k` through `tanh`;
  • the logistic of a third `dense` of the hidden layer's row (256 further weight rows, two bias rows summed);
  • and the stored value at `(p, j)`: the softmax, at `j`, of the 32 `dense` logits of the row
    `k ↦ relu (σ(a (p, k)) · tanh (b (p, k) · c (p, k)))` of the three carried matrices.
  Each statement opens only its own operations: an inner computed matrix stays a name on the right.
-/
import proofs.«131758_j39917426049717_2_alg».proof.Proof.Gen.KernelIdeal.Skeleton
import proofs.«131758_j39917426049717_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Cert.LstmRow Idealize.ShloMosaic Idealize.ShloMosaic.ValueIdx

variable (v0 : Vec Ideal S64x512 .f32) (v3 : Vec Ideal S256x512 .f32) (v6 : Vec Ideal S1x256 .f32)
  (v13 : Vec Ideal S256x256 .f32) (v15 : Vec Ideal S512x256 .f32) (v18 v20 : Vec Ideal S1x256 .f32)
  (v26 v28 : Vec Ideal S1x512 .f32) (v34 v35 v36 : FVec Ideal S64x256 .f32) (v43 : Vec Ideal S32x256 .f32) (v47 : Vec Ideal S1x32 .f32)

/-! ## The three transcendental operations at an index -/

section Pointwise
variable {s : Shape} {φ : FTy}

/-- The logistic of a matrix, at an index, is the logistic function of the entry … -/
theorem logistic_at (a : FVec Ideal s φ) (i : s.Idx) : logistic a i = Ideal.logistic (a i) := rfl
/-- … the hyperbolic tangent likewise … -/
theorem tanh_at (a : FVec Ideal s φ) (i : s.Idx) : tanh a i = Ideal.tanh (a i) := rfl
/-- … and the exponential. -/
theorem exp_at (a : FVec Ideal s φ) (i : s.Idx) : exp a i = Ideal.exp (a i) := rfl

end Pointwise

/-! ## A vector of row values as a column, repeated along each row; a row's maximum and sum -/

section Rows
variable {α : Type}

/-- A vector of `a` values cast to a column `[a, 1]` and repeated to `[a, b]` reads, at `(p, j)`, the value of row `p`. -/
theorem colBroadcast_at {a b : ℕ} (w : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ w h1) h2 (ix2 p j) = w (ix1 p) := by
  refine (broadcastTo_apply _ h2 (ix2 p j) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply w h1 _ _ (by
      rw [Shape.rowMajor_val_one, Shape.rowMajor_val_two]
      show p.val = p.val * 1 + 0
      omega)

end Rows

/-- Over row `p` of a `64 × 32` matrix, the index with `k` put back on the reduced axis is `(p, k)`. -/
theorem lift_row (p : Fin 64) (k : Fin 32) : reduces_S64x32_S64.lift (ix1 p) k = ix2 p k :=
  funext fun c => Fin.ext (by
    match c with
    | ⟨0, _⟩ => rfl
    | ⟨1, _⟩ => rfl)

/-- The maximum along each row, from minus infinity, at row `p`: the fold of `max` over the row's 32 entries. -/
theorem rowMax_at (x : FVec Ideal S64x32 .f32) (hφ : FKind.Formats .f32)
    (hacc : (0xFF800000#32 : BitVec (FTy.bits .f32)) = FKind.maximumf.neutral .f32 hφ) (p : Fin 64) :
    multiReduction (F := Ideal) .maximumf [1] S64 x 0xFF800000#32 reduces_S64x32_S64 hφ hacc (ix1 p)
      = (Finset.univ : Finset (Fin 32)).fold max ninf32 (fun k => x (ix2 p k)) := by
  refine (Ideal.multiReduction_maximumf_single x _ reduces_S64x32_S64 hφ hacc (ix1 p)).trans ?_
  exact congrArg (fun f : Fin 32 → EReal => (Finset.univ : Finset (Fin 32)).fold max ninf32 f)
    (funext fun k => congrArg x (lift_row p k))

/-- The sum along each row at row `p`: the sum of the row's 32 entries. -/
theorem rowSum_at (x : FVec Ideal S64x32 .f32) (hφ : FKind.Formats .f32)
    (hacc : (0x00000000#32 : BitVec (FTy.bits .f32)) = FKind.add.neutral .f32 hφ) (p : Fin 64) :
    multiReduction (F := Ideal) .add [1] S64 x 0x00000000#32 reduces_S64x32_S64 hφ hacc (ix1 p)
      = ∑ k : Fin 32, x (ix2 p k) := by
  refine (Ideal.multiReduction_add_single x _ reduces_S64x32_S64 hφ hacc (ix1 p)).trans ?_
  exact Finset.sum_congr rfl fun k _ => congrArg x (lift_row p k)

/-! The record `dot_S64x512_S256x512_S64x256_1_1_0_0_n_n`: operand indices of the product at output `(p, n)` and contraction position `q`. -/
theorem dot_in_at_l0 (i : S64x256.Idx) (q : dot_S64x512_S256x512_S64x256_1_1_0_0_n_n.contr.Idx) : (dot_S64x512_S256x512_S64x256_1_1_0_0_n_n.lhsIdx i q 0).val = (i 0).val := by
  unfold DotDims.lhsIdx
  rw [dif_neg (show ¬(0 : Fin S64x512.rank) ∈ dot_S64x512_S256x512_S64x256_1_1_0_0_n_n.lhsBatch by decide),
    dif_pos (show (0 : Fin S64x512.rank) ∈ dot_S64x512_S256x512_S64x256_1_1_0_0_n_n.lhsNonContracting by decide)]
  rfl
theorem dot_in_at_l1 (i : S64x256.Idx) (q : dot_S64x512_S256x512_S64x256_1_1_0_0_n_n.contr.Idx) : (dot_S64x512_S256x512_S64x256_1_1_0_0_n_n.lhsIdx i q 1).val = (q ⟨0, by decide⟩).val :=
  dot_S64x512_S256x512_S64x256_1_1_0_0_n_n.lhsIdx_val_of_single rfl i q
theorem dot_in_at_r0 (i : S64x256.Idx) (q : dot_S64x512_S256x512_S64x256_1_1_0_0_n_n.contr.Idx) : (dot_S64x512_S256x512_S64x256_1_1_0_0_n_n.rhsIdx i q 0).val = (i 1).val := by
  unfold DotDims.rhsIdx
  rw [dif_neg (show ¬(0 : Fin S256x512.rank) ∈ dot_S64x512_S256x512_S64x256_1_1_0_0_n_n.rhsBatch by decide),
    dif_pos (show (0 : Fin S256x512.rank) ∈ dot_S64x512_S256x512_S64x256_1_1_0_0_n_n.rhsNonContracting by decide)]
  rfl
theorem dot_in_at_r1 (i : S64x256.Idx) (q : dot_S64x512_S256x512_S64x256_1_1_0_0_n_n.contr.Idx) : (dot_S64x512_S256x512_S64x256_1_1_0_0_n_n.rhsIdx i q 1).val = (q ⟨0, by decide⟩).val :=
  dot_S64x512_S256x512_S64x256_1_1_0_0_n_n.rhsIdx_val_of_single rfl i q

/-- The matrix product of this record into the zero accumulator, read at `(p, n)`: both operands are contracted
    along their second axis, so the entry is the sum over `k` of `l (p, k) * r (n, k)`. -/
theorem dot_in_at {φ₁ φ₂ : FTy} (l : FVec Ideal S64x512 φ₁) (r : FVec Ideal S256x512 φ₂) (p : Fin 64) (n : Fin 256) :
    matmul dot_S64x512_S256x512_S64x256_1_1_0_0_n_n none l r (constant S64x256 .f32 0x00000000#32) (ix2 p n)
      = ∑ k : Fin 512, l (ix2 p k) * r (ix2 n k) := by
  simp only [matmul]
  rw [Ideal.matmul_constant_zero_apply, ← Equiv.sum_comp (contrEquiv1 dot_S64x512_S256x512_S64x256_1_1_0_0_n_n 512 rfl rfl).symm]
  refine Finset.sum_congr rfl fun k _ => ?_
  have hk := contrEquiv1_symm_val dot_S64x512_S256x512_S64x256_1_1_0_0_n_n 512 rfl rfl k
  have el : dot_S64x512_S256x512_S64x256_1_1_0_0_n_n.lhsIdx (ix2 p n) ((contrEquiv1 dot_S64x512_S256x512_S64x256_1_1_0_0_n_n 512 rfl rfl).symm k) = ix2 p k :=
    funext fun a => Fin.ext (by
      match a with
      | ⟨0, _⟩ => exact dot_in_at_l0 _ _
      | ⟨1, _⟩ => exact (dot_in_at_l1 _ _).trans hk)
  have er : dot_S64x512_S256x512_S64x256_1_1_0_0_n_n.rhsIdx (ix2 p n) ((contrEquiv1 dot_S64x512_S256x512_S64x256_1_1_0_0_n_n 512 rfl rfl).symm k) = ix2 n k :=
    funext fun a => Fin.ext (by
      match a with
      | ⟨0, _⟩ => exact dot_in_at_r0 _ _
      | ⟨1, _⟩ => exact (dot_in_at_r1 _ _).trans hk)
  rw [el, er]

/-! The record `dot_S64x256_S256x256_S64x256_1_1_0_0_n_n`: operand indices of the product at output `(p, n)` and contraction position `q`. -/
theorem dot_gate256_at_l0 (i : S64x256.Idx) (q : dot_S64x256_S256x256_S64x256_1_1_0_0_n_n.contr.Idx) : (dot_S64x256_S256x256_S64x256_1_1_0_0_n_n.lhsIdx i q 0).val = (i 0).val := by
  unfold DotDims.lhsIdx
  rw [dif_neg (show ¬(0 : Fin S64x256.rank) ∈ dot_S64x256_S256x256_S64x256_1_1_0_0_n_n.lhsBatch by decide),
    dif_pos (show (0 : Fin S64x256.rank) ∈ dot_S64x256_S256x256_S64x256_1_1_0_0_n_n.lhsNonContracting by decide)]
  rfl
theorem dot_gate256_at_l1 (i : S64x256.Idx) (q : dot_S64x256_S256x256_S64x256_1_1_0_0_n_n.contr.Idx) : (dot_S64x256_S256x256_S64x256_1_1_0_0_n_n.lhsIdx i q 1).val = (q ⟨0, by decide⟩).val :=
  dot_S64x256_S256x256_S64x256_1_1_0_0_n_n.lhsIdx_val_of_single rfl i q
theorem dot_gate256_at_r0 (i : S64x256.Idx) (q : dot_S64x256_S256x256_S64x256_1_1_0_0_n_n.contr.Idx) : (dot_S64x256_S256x256_S64x256_1_1_0_0_n_n.rhsIdx i q 0).val = (i 1).val := by
  unfold DotDims.rhsIdx
  rw [dif_neg (show ¬(0 : Fin S256x256.rank) ∈ dot_S64x256_S256x256_S64x256_1_1_0_0_n_n.rhsBatch by decide),
    dif_pos (show (0 : Fin S256x256.rank) ∈ dot_S64x256_S256x256_S64x256_1_1_0_0_n_n.rhsNonContracting by decide)]
  rfl
theorem dot_gate256_at_r1 (i : S64x256.Idx) (q : dot_S64x256_S256x256_S64x256_1_1_0_0_n_n.contr.Idx) : (dot_S64x256_S256x256_S64x256_1_1_0_0_n_n.rhsIdx i q 1).val = (q ⟨0, by decide⟩).val :=
  dot_S64x256_S256x256_S64x256_1_1_0_0_n_n.rhsIdx_val_of_single rfl i q

/-- The matrix product of this record into the zero accumulator, read at `(p, n)`: both operands are contracted
    along their second axis, so the entry is the sum over `k` of `l (p, k) * r (n, k)`. -/
theorem dot_gate256_at {φ₁ φ₂ : FTy} (l : FVec Ideal S64x256 φ₁) (r : FVec Ideal S256x256 φ₂) (p : Fin 64) (n : Fin 256) :
    matmul dot_S64x256_S256x256_S64x256_1_1_0_0_n_n none l r (constant S64x256 .f32 0x00000000#32) (ix2 p n)
      = ∑ k : Fin 256, l (ix2 p k) * r (ix2 n k) := by
  simp only [matmul]
  rw [Ideal.matmul_constant_zero_apply, ← Equiv.sum_comp (contrEquiv1 dot_S64x256_S256x256_S64x256_1_1_0_0_n_n 256 rfl rfl).symm]
  refine Finset.sum_congr rfl fun k _ => ?_
  have hk := contrEquiv1_symm_val dot_S64x256_S256x256_S64x256_1_1_0_0_n_n 256 rfl rfl k
  have el : dot_S64x256_S256x256_S64x256_1_1_0_0_n_n.lhsIdx (ix2 p n) ((contrEquiv1 dot_S64x256_S256x256_S64x256_1_1_0_0_n_n 256 rfl rfl).symm k) = ix2 p k :=
    funext fun a => Fin.ext (by
      match a with
      | ⟨0, _⟩ => exact dot_gate256_at_l0 _ _
      | ⟨1, _⟩ => exact (dot_gate256_at_l1 _ _).trans hk)
  have er : dot_S64x256_S256x256_S64x256_1_1_0_0_n_n.rhsIdx (ix2 p n) ((contrEquiv1 dot_S64x256_S256x256_S64x256_1_1_0_0_n_n 256 rfl rfl).symm k) = ix2 n k :=
    funext fun a => Fin.ext (by
      match a with
      | ⟨0, _⟩ => exact dot_gate256_at_r0 _ _
      | ⟨1, _⟩ => exact (dot_gate256_at_r1 _ _).trans hk)
  rw [el, er]

/-! The record `dot_S64x256_S512x256_S64x512_1_1_0_0_n_n`: operand indices of the product at output `(p, n)` and contraction position `q`. -/
theorem dot_gate512_at_l0 (i : S64x512.Idx) (q : dot_S64x256_S512x256_S64x512_1_1_0_0_n_n.contr.Idx) : (dot_S64x256_S512x256_S64x512_1_1_0_0_n_n.lhsIdx i q 0).val = (i 0).val := by
  unfold DotDims.lhsIdx
  rw [dif_neg (show ¬(0 : Fin S64x256.rank) ∈ dot_S64x256_S512x256_S64x512_1_1_0_0_n_n.lhsBatch by decide),
    dif_pos (show (0 : Fin S64x256.rank) ∈ dot_S64x256_S512x256_S64x512_1_1_0_0_n_n.lhsNonContracting by decide)]
  rfl
theorem dot_gate512_at_l1 (i : S64x512.Idx) (q : dot_S64x256_S512x256_S64x512_1_1_0_0_n_n.contr.Idx) : (dot_S64x256_S512x256_S64x512_1_1_0_0_n_n.lhsIdx i q 1).val = (q ⟨0, by decide⟩).val :=
  dot_S64x256_S512x256_S64x512_1_1_0_0_n_n.lhsIdx_val_of_single rfl i q
theorem dot_gate512_at_r0 (i : S64x512.Idx) (q : dot_S64x256_S512x256_S64x512_1_1_0_0_n_n.contr.Idx) : (dot_S64x256_S512x256_S64x512_1_1_0_0_n_n.rhsIdx i q 0).val = (i 1).val := by
  unfold DotDims.rhsIdx
  rw [dif_neg (show ¬(0 : Fin S512x256.rank) ∈ dot_S64x256_S512x256_S64x512_1_1_0_0_n_n.rhsBatch by decide),
    dif_pos (show (0 : Fin S512x256.rank) ∈ dot_S64x256_S512x256_S64x512_1_1_0_0_n_n.rhsNonContracting by decide)]
  rfl
theorem dot_gate512_at_r1 (i : S64x512.Idx) (q : dot_S64x256_S512x256_S64x512_1_1_0_0_n_n.contr.Idx) : (dot_S64x256_S512x256_S64x512_1_1_0_0_n_n.rhsIdx i q 1).val = (q ⟨0, by decide⟩).val :=
  dot_S64x256_S512x256_S64x512_1_1_0_0_n_n.rhsIdx_val_of_single rfl i q

/-- The matrix product of this record into the zero accumulator, read at `(p, n)`: both operands are contracted
    along their second axis, so the entry is the sum over `k` of `l (p, k) * r (n, k)`. -/
theorem dot_gate512_at {φ₁ φ₂ : FTy} (l : FVec Ideal S64x256 φ₁) (r : FVec Ideal S512x256 φ₂) (p : Fin 64) (n : Fin 512) :
    matmul dot_S64x256_S512x256_S64x512_1_1_0_0_n_n none l r (constant S64x512 .f32 0x00000000#32) (ix2 p n)
      = ∑ k : Fin 256, l (ix2 p k) * r (ix2 n k) := by
  simp only [matmul]
  rw [Ideal.matmul_constant_zero_apply, ← Equiv.sum_comp (contrEquiv1 dot_S64x256_S512x256_S64x512_1_1_0_0_n_n 256 rfl rfl).symm]
  refine Finset.sum_congr rfl fun k _ => ?_
  have hk := contrEquiv1_symm_val dot_S64x256_S512x256_S64x512_1_1_0_0_n_n 256 rfl rfl k
  have el : dot_S64x256_S512x256_S64x512_1_1_0_0_n_n.lhsIdx (ix2 p n) ((contrEquiv1 dot_S64x256_S512x256_S64x512_1_1_0_0_n_n 256 rfl rfl).symm k) = ix2 p k :=
    funext fun a => Fin.ext (by
      match a with
      | ⟨0, _⟩ => exact dot_gate512_at_l0 _ _
      | ⟨1, _⟩ => exact (dot_gate512_at_l1 _ _).trans hk)
  have er : dot_S64x256_S512x256_S64x512_1_1_0_0_n_n.rhsIdx (ix2 p n) ((contrEquiv1 dot_S64x256_S512x256_S64x512_1_1_0_0_n_n 256 rfl rfl).symm k) = ix2 n k :=
    funext fun a => Fin.ext (by
      match a with
      | ⟨0, _⟩ => exact dot_gate512_at_r0 _ _
      | ⟨1, _⟩ => exact (dot_gate512_at_r1 _ _).trans hk)
  rw [el, er]

/-! The record `dot_S64x256_S32x256_S64x32_1_1_0_0_n_n`: operand indices of the product at output `(p, n)` and contraction position `q`. -/
theorem dot_out_at_l0 (i : S64x32.Idx) (q : dot_S64x256_S32x256_S64x32_1_1_0_0_n_n.contr.Idx) : (dot_S64x256_S32x256_S64x32_1_1_0_0_n_n.lhsIdx i q 0).val = (i 0).val := by
  unfold DotDims.lhsIdx
  rw [dif_neg (show ¬(0 : Fin S64x256.rank) ∈ dot_S64x256_S32x256_S64x32_1_1_0_0_n_n.lhsBatch by decide),
    dif_pos (show (0 : Fin S64x256.rank) ∈ dot_S64x256_S32x256_S64x32_1_1_0_0_n_n.lhsNonContracting by decide)]
  rfl
theorem dot_out_at_l1 (i : S64x32.Idx) (q : dot_S64x256_S32x256_S64x32_1_1_0_0_n_n.contr.Idx) : (dot_S64x256_S32x256_S64x32_1_1_0_0_n_n.lhsIdx i q 1).val = (q ⟨0, by decide⟩).val :=
  dot_S64x256_S32x256_S64x32_1_1_0_0_n_n.lhsIdx_val_of_single rfl i q
theorem dot_out_at_r0 (i : S64x32.Idx) (q : dot_S64x256_S32x256_S64x32_1_1_0_0_n_n.contr.Idx) : (dot_S64x256_S32x256_S64x32_1_1_0_0_n_n.rhsIdx i q 0).val = (i 1).val := by
  unfold DotDims.rhsIdx
  rw [dif_neg (show ¬(0 : Fin S32x256.rank) ∈ dot_S64x256_S32x256_S64x32_1_1_0_0_n_n.rhsBatch by decide),
    dif_pos (show (0 : Fin S32x256.rank) ∈ dot_S64x256_S32x256_S64x32_1_1_0_0_n_n.rhsNonContracting by decide)]
  rfl
theorem dot_out_at_r1 (i : S64x32.Idx) (q : dot_S64x256_S32x256_S64x32_1_1_0_0_n_n.contr.Idx) : (dot_S64x256_S32x256_S64x32_1_1_0_0_n_n.rhsIdx i q 1).val = (q ⟨0, by decide⟩).val :=
  dot_S64x256_S32x256_S64x32_1_1_0_0_n_n.rhsIdx_val_of_single rfl i q

/-- The matrix product of this record into the zero accumulator, read at `(p, n)`: both operands are contracted
    along their second axis, so the entry is the sum over `k` of `l (p, k) * r (n, k)`. -/
theorem dot_out_at {φ₁ φ₂ : FTy} (l : FVec Ideal S64x256 φ₁) (r : FVec Ideal S32x256 φ₂) (p : Fin 64) (n : Fin 32) :
    matmul dot_S64x256_S32x256_S64x32_1_1_0_0_n_n none l r (constant S64x32 .f32 0x00000000#32) (ix2 p n)
      = ∑ k : Fin 256, l (ix2 p k) * r (ix2 n k) := by
  simp only [matmul]
  rw [Ideal.matmul_constant_zero_apply, ← Equiv.sum_comp (contrEquiv1 dot_S64x256_S32x256_S64x32_1_1_0_0_n_n 256 rfl rfl).symm]
  refine Finset.sum_congr rfl fun k _ => ?_
  have hk := contrEquiv1_symm_val dot_S64x256_S32x256_S64x32_1_1_0_0_n_n 256 rfl rfl k
  have el : dot_S64x256_S32x256_S64x32_1_1_0_0_n_n.lhsIdx (ix2 p n) ((contrEquiv1 dot_S64x256_S32x256_S64x32_1_1_0_0_n_n 256 rfl rfl).symm k) = ix2 p k :=
    funext fun a => Fin.ext (by
      match a with
      | ⟨0, _⟩ => exact dot_out_at_l0 _ _
      | ⟨1, _⟩ => exact (dot_out_at_l1 _ _).trans hk)
  have er : dot_S64x256_S32x256_S64x32_1_1_0_0_n_n.rhsIdx (ix2 p n) ((contrEquiv1 dot_S64x256_S32x256_S64x32_1_1_0_0_n_n 256 rfl rfl).symm k) = ix2 n k :=
    funext fun a => Fin.ext (by
      match a with
      | ⟨0, _⟩ => exact dot_out_at_r0 _ _
      | ⟨1, _⟩ => exact (dot_out_at_r1 _ _).trans hk)
  rw [el, er]

theorem pay2_at (p : Fin 64) (k : Fin 256) :
    k0_pay2 v0 v3 v6 (ix2 p k) = relu (dense (fun k a => v3 (ix2 k a)) (fun k => v6 (ix2 0 k)) (fun a => v0 (ix2 p a)) k) := by
  unfold k0_pay2
  simp only [maximumf_apply, addf_apply, broadcast_apply, shapeCast_self, dot_in_at, broadcastTo_1b_ab_apply, truncf_apply]
  rfl

theorem pay3_at (p : Fin 64) (q : Fin 512) :
    k0_pay3 v0 v3 v6 v15 v26 v28 (ix2 p q)
      = dense (fun q k => v15 (ix2 q k)) (fun q => v26 (ix2 0 q) + v28 (ix2 0 q)) (fun k => k0_pay2 v0 v3 v6 (ix2 p k)) q := by
  unfold k0_pay3
  simp only [addf_apply, shapeCast_self, dot_gate512_at, broadcastTo_1b_ab_apply, truncf_apply]
  rfl

theorem pay4_at (p : Fin 64) (k : Fin 256) :
    k0_pay4 v0 v3 v6 v15 v26 v28 (ix2 p k)
      = k0_pay3 v0 v3 v6 v15 v26 v28 (ix2 p (⟨256 + k.val, by have := k.isLt; omega⟩ : Fin 512)) := by
  unfold k0_pay4
  exact slice2_axis1_apply 256 _ slices_S64x512_o0_256_S64x256 p k _ rfl

theorem pay6_at (p : Fin 64) (k : Fin 256) :
    k0_pay6 v0 v3 v6 v15 v26 v28 (ix2 p k)
      = Ideal.tanh (k0_pay3 v0 v3 v6 v15 v26 v28 (ix2 p (⟨k.val, by have := k.isLt; omega⟩ : Fin 512))) := by
  unfold k0_pay6
  show Ideal.tanh (extractStridedSlice S64x256 ![0, 0] (k0_pay3 v0 v3 v6 v15 v26 v28) slices_S64x512_o0_0_S64x256 (ix2 p k)) = _
  exact congrArg Ideal.tanh (slice2_axis1_apply 0 _ slices_S64x512_o0_0_S64x256 p k _ (Nat.zero_add _).symm)

theorem pay5_at (p : Fin 64) (k : Fin 256) :
    k0_pay5 v0 v3 v6 v13 v18 v20 (ix2 p k)
      = Ideal.logistic (dense (fun k k' => v13 (ix2 k k')) (fun k => v18 (ix2 0 k) + v20 (ix2 0 k)) (fun k' => k0_pay2 v0 v3 v6 (ix2 p k')) k) := by
  unfold k0_pay5
  simp only [logistic_at, addf_apply, shapeCast_self, dot_gate256_at, broadcastTo_1b_ab_apply, truncf_apply]
  rfl

/-! ## The stored value: the logits, then the stable softmax along each row -/

/-- The logits as the kernel forms them: the ReLU of `σ(a) · tanh(b · c)`, times the output weights, plus the bias row. -/
def logitsMat (v34 v35 v36 : FVec Ideal S64x256 .f32) (v43 : Vec Ideal S32x256 .f32) (v47 : Vec Ideal S1x32 .f32) :
    FVec Ideal S64x32 .f32 :=
  addf
    (matmul dot_S64x256_S32x256_S64x32_1_1_0_0_n_n none
      (truncf .bf16 (maximumf (mulf (logistic v34) (tanh (mulf v35 v36)))
        (broadcast S64x256 (Scalar.ofBits (F := Ideal) .f32 0x00000000#32))) bitsLt_bf16_f32)
      (truncf .bf16 v43 bitsLt_bf16_f32) (constant S64x32 .f32 0x00000000#32))
    (broadcastTo S64x32 (shapeCast S1x32 v47 shapeCasts_S1x32_S1x32) broadcasts_S1x32_S64x32)

/-- The logits at `(p, j)`: the affine map's output `j` on the row `k ↦ relu (σ(a (p, k)) · tanh (b (p, k) · c (p, k)))`. -/
theorem logitsMat_at (p : Fin 64) (j : Fin 32) :
    logitsMat v34 v35 v36 v43 v47 (ix2 p j)
      = dense (fun j k => v43 (ix2 j k)) (fun j => v47 (ix2 0 j))
          (fun k => relu (Ideal.logistic (v34 (ix2 p k)) * Ideal.tanh (v35 (ix2 p k) * v36 (ix2 p k)))) j := by
  unfold logitsMat
  simp only [addf_apply, shapeCast_self, dot_out_at, broadcastTo_1b_ab_apply, truncf_apply, maximumf_apply, mulf_apply,
    logistic_at, tanh_at, broadcast_apply]
  rfl

/-- Each row's maximum, from minus infinity and once more against minus infinity. -/
def rowMaxVec (x : FVec Ideal S64x32 .f32) : FVec Ideal S64 .f32 :=
  maximumf (broadcast S64 (Scalar.ofBits (F := Ideal) .f32 0xFF800000#32))
    (multiReduction (F := Ideal) .maximumf [1] S64 x 0xFF800000#32 reduces_S64x32_S64 (.inl rfl) rfl)

/-- At row `p` it is the specification's maximum of the row's 32 entries. -/
theorem rowMaxVec_at (x : FVec Ideal S64x32 .f32) (p : Fin 64) :
    rowMaxVec x (ix1 p) = maxOf (fun j => x (ix2 p j)) := by
  show max ninf32 (multiReduction (F := Ideal) .maximumf [1] S64 x 0xFF800000#32 reduces_S64x32_S64 (.inl rfl) rfl (ix1 p)) = _
  exact congrArg (max ninf32) (rowMax_at x _ _ p)

/-- The exponentials of the differences to the row's maximum. -/
def expRows (x : FVec Ideal S64x32 .f32) : FVec Ideal S64x32 .f32 :=
  exp (subf x (broadcastTo S64x32 (shapeCast S64x1 (rowMaxVec x) shapeCasts_S64_S64x1) broadcasts_S64x1_S64x32))

theorem expRows_at (x : FVec Ideal S64x32 .f32) (p : Fin 64) (j : Fin 32) :
    expRows x (ix2 p j) = Ideal.exp (x (ix2 p j) - maxOf (fun j => x (ix2 p j))) := by
  unfold expRows
  simp only [exp_at, subf_apply, colBroadcast_at, rowMaxVec_at]

/-- The softmax as the kernel takes it along the rows of a `64 × 32` matrix: the exponentials over their row sum. -/
def softmaxRows (x : FVec Ideal S64x32 .f32) : FVec Ideal S64x32 .f32 :=
  divf (expRows x) (broadcastTo S64x32
    (shapeCast S64x1 (multiReduction (F := Ideal) .add [1] S64 (expRows x) 0x00000000#32 reduces_S64x32_S64 (.inl rfl) rfl)
      shapeCasts_S64_S64x1) broadcasts_S64x1_S64x32)

/-- Read at `(p, j)` it is the softmax of row `p` at `j`. -/
theorem softmaxRows_at (x : FVec Ideal S64x32 .f32) (p : Fin 64) (j : Fin 32) :
    softmaxRows x (ix2 p j) = softmax (fun j => x (ix2 p j)) j := by
  unfold softmaxRows softmax
  simp only [divf_apply, colBroadcast_at, expRows_at]
  exact congrArg (Ideal.div _)
    ((rowSum_at (expRows x) _ _ p).trans (Finset.sum_congr rfl fun k _ => expRows_at x p k))

/-- The stored matrix is the row softmax of the logits. -/
theorem pay1_eq : k0_pay1 v34 v35 v36 v43 v47 = softmaxRows (logitsMat v34 v35 v36 v43 v47) := rfl

theorem pay1_at (p : Fin 64) (j : Fin 32) :
    k0_pay1 v34 v35 v36 v43 v47 (ix2 p j)
      = softmax (dense (fun j k => v43 (ix2 j k)) (fun j => v47 (ix2 0 j))
          (fun k => relu (Ideal.logistic (v34 (ix2 p k)) * Ideal.tanh (v35 (ix2 p k) * v36 (ix2 p k))))) j := by
  rw [pay1_eq, softmaxRows_at]
  exact congrArg (fun l : Fin 32 → EReal => softmax l j) (funext fun j' => logitsMat_at v34 v35 v36 v43 v47 p j')

end Cert.KernelIdeal.Payloads

end
-- ==== Proof.KerValue.lean ====
/-
  The kernel's result array is the network of Spec.lean on the rows `x[p, 15, ·, 127]`.

  The kernel is launched on one grid point with every block the whole of its array, so what the point writes
  back is what the body leaves, and the body's inputs are the arrays as the region finds them: the weights as
  launched, the four bias vectors viewed [1, n], and the rows — the input sliced at matrix 15 and column 127
  and the two unit axes dropped (`V_rows_at`).

  The body computes the hidden layer once and multiplies it with TWO stretches of the gates' weights, rows
  0–255 (the input gate) and rows 512–1023 (the cell and output gates; the forget gate's rows 256–511 are
  never loaded), adds the same stretches of the two bias rows, and splits the second product in two halves.
  `gateI_blk` and `gateGO_blk` read those as rows of the ONE affine map `gate`; `hout_blk` is the step,
  `body_at` the rest: logits and softmax over the payloads read at an entry (KerPayloads.lean).

  Then the blocks to the array: `flushed_eq` (the point writes the whole of `net`), the cover (the one
  block is the array), `final` and the run.
-/
import proofs.«131758_j39917426049717_2_alg».proof.Proof.Gen.KernelIdeal.Value
import proofs.«131758_j39917426049717_2_alg».proof.Proof.Spec
import proofs.«131758_j39917426049717_2_alg».proof.Proof.KerPayloads
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.KernelIdeal.Value Cert.LstmRow

variable (m : (ℓ : Loc nD τ sig) → Buf (Elt Ideal) ℓ) (ρ : Dev nD → PrngReg)

theorem hz : (![0, 0] : Fin 2 → Nat) = fun _ => 0 := funext fun a => by fin_cases a <;> rfl

/-! ## What the region finds in each staged array -/

theorem V_rows (c : Dev nD) : (V m c main_v1 : S64x512.Idx → EReal)
    = shapeCast S64x512 (extractStridedSlice S64x1x512x1 ![0, 15, 0, 127] (m ((c : Thread nD τ).loc main_arg0)) slices_S64x16x512x128_S64x1x512x1_0_15_0_127) shapeCasts_S64x1x512x1_S64x512 := by
  dsimp only [V, hostOps0]; after_results; rfl

theorem V_b1 (c : Dev nD) : (V m c main_v2 : S1x256.Idx → EReal)
    = shapeCast S1x256 (m ((c : Thread nD τ).loc main_arg2)) shapeCasts_S256_S1x256 := by
  dsimp only [V, hostOps0]; after_results; rfl

theorem V_bih (c : Dev nD) : (V m c main_v3 : S1x1024.Idx → EReal)
    = shapeCast S1x1024 (m ((c : Thread nD τ).loc main_arg5)) shapeCasts_S1024_S1x1024 := by
  dsimp only [V, hostOps0]; after_results; rfl

theorem V_bhh (c : Dev nD) : (V m c main_v4 : S1x1024.Idx → EReal)
    = shapeCast S1x1024 (m ((c : Thread nD τ).loc main_arg6)) shapeCasts_S1024_S1x1024 := by
  dsimp only [V, hostOps0]; after_results; rfl

theorem V_b3 (c : Dev nD) : (V m c main_v5 : S1x32.Idx → EReal)
    = shapeCast S1x32 (m ((c : Thread nD τ).loc main_arg8)) shapeCasts_S32_S1x32 := by
  dsimp only [V, hostOps0]; after_results; rfl

/-- The rows the kernel is given are `x[p, 15, ·, 127]`: the slice keeps matrix 15 and column 127, and the cast
    drops the two unit axes. -/
theorem V_rows_at (c : Dev nD) (p : Fin 64) (a : Fin 512) :
    (V m c main_v1 : S64x512.Idx → EReal) (ix2 p a) = (m ((c : Thread nD τ).loc main_arg0) : S64x16x512x128.Idx → EReal) (ix4 p 15 a 127) := by
  rw [V_rows]
  refine (shapeCast_apply _ shapeCasts_S64x1x512x1_S64x512 (ix2 p a) (ix4 p 0 a 0) ?_).trans ?_
  · rw [Shape.rowMajor_val_four, Shape.rowMajor_val_two]
    show ((p.val * 1 + 0) * 512 + a.val) * 1 + 0 = p.val * 512 + a.val
    omega
  · refine extractStridedSlice_apply _ _ _ (ix4 p 0 a 0) (ix4 p 15 a 127) fun b => ?_
    match b with
    | ⟨0, _⟩ => show p.val = 0 + p.val; omega
    | ⟨1, _⟩ => show 15 = 15 + 0; rfl
    | ⟨2, _⟩ => show a.val = 0 + a.val; omega
    | ⟨3, _⟩ => show 127 = 127 + 0; rfl

/-! ## The one grid point's blocks are the whole arrays -/

theorem iblk0 (c : Dev nD) (t : Fin cfg0.N) : (iblk m c 0 t : Vec Ideal S64x512 .f32) = (V m c main_v1 : S64x512.Idx → EReal) := by
  obtain rfl := fin_N0 t
  have hz' : (fun a => win0_0.index t0_0 a * main_v1.ty.shape.size a) = fun _ => 0 := funext fun a => by fin_cases a <;> decide
  exact Memref.read_access_unit_zero (Elt Ideal) main_v1 hz' (fun a => by rw [congrFun hz' a]; simp) (V m c main_v1)

theorem iblk1 (c : Dev nD) (t : Fin cfg0.N) : (iblk m c 1 t : Vec Ideal S256x512 .f32) = (V m c main_arg1 : S256x512.Idx → EReal) := by
  obtain rfl := fin_N0 t
  have hz' : (fun a => win0_1.index t0_0 a * main_arg1.ty.shape.size a) = fun _ => 0 := funext fun a => by fin_cases a <;> decide
  exact Memref.read_access_unit_zero (Elt Ideal) main_arg1 hz' (fun a => by rw [congrFun hz' a]; simp) (V m c main_arg1)

theorem iblk2 (c : Dev nD) (t : Fin cfg0.N) : (iblk m c 2 t : Vec Ideal S1x256 .f32) = (V m c main_v2 : S1x256.Idx → EReal) := by
  obtain rfl := fin_N0 t
  have hz' : (fun a => win0_2.index t0_0 a * main_v2.ty.shape.size a) = fun _ => 0 := funext fun a => by fin_cases a <;> decide
  exact Memref.read_access_unit_zero (Elt Ideal) main_v2 hz' (fun a => by rw [congrFun hz' a]; simp) (V m c main_v2)

theorem iblk3 (c : Dev nD) (t : Fin cfg0.N) : (iblk m c 3 t : Vec Ideal S1024x256 .f32) = (V m c main_arg3 : S1024x256.Idx → EReal) := by
  obtain rfl := fin_N0 t
  have hz' : (fun a => win0_3.index t0_0 a * main_arg3.ty.shape.size a) = fun _ => 0 := funext fun a => by fin_cases a <;> decide
  exact Memref.read_access_unit_zero (Elt Ideal) main_arg3 hz' (fun a => by rw [congrFun hz' a]; simp) (V m c main_arg3)

theorem iblk4 (c : Dev nD) (t : Fin cfg0.N) : (iblk m c 4 t : Vec Ideal S1x1024 .f32) = (V m c main_v3 : S1x1024.Idx → EReal) := by
  obtain rfl := fin_N0 t
  have hz' : (fun a => win0_4.index t0_0 a * main_v3.ty.shape.size a) = fun _ => 0 := funext fun a => by fin_cases a <;> decide
  exact Memref.read_access_unit_zero (Elt Ideal) main_v3 hz' (fun a => by rw [congrFun hz' a]; simp) (V m c main_v3)

theorem iblk5 (c : Dev nD) (t : Fin cfg0.N) : (iblk m c 5 t : Vec Ideal S1x1024 .f32) = (V m c main_v4 : S1x1024.Idx → EReal) := by
  obtain rfl := fin_N0 t
  have hz' : (fun a => win0_5.index t0_0 a * main_v4.ty.shape.size a) = fun _ => 0 := funext fun a => by fin_cases a <;> decide
  exact Memref.read_access_unit_zero (Elt Ideal) main_v4 hz' (fun a => by rw [congrFun hz' a]; simp) (V m c main_v4)

theorem iblk6 (c : Dev nD) (t : Fin cfg0.N) : (iblk m c 6 t : Vec Ideal S32x256 .f32) = (V m c main_arg7 : S32x256.Idx → EReal) := by
  obtain rfl := fin_N0 t
  have hz' : (fun a => win0_6.index t0_0 a * main_arg7.ty.shape.size a) = fun _ => 0 := funext fun a => by fin_cases a <;> decide
  exact Memref.read_access_unit_zero (Elt Ideal) main_arg7 hz' (fun a => by rw [congrFun hz' a]; simp) (V m c main_arg7)

theorem iblk7 (c : Dev nD) (t : Fin cfg0.N) : (iblk m c 7 t : Vec Ideal S1x32 .f32) = (V m c main_v5 : S1x32.Idx → EReal) := by
  obtain rfl := fin_N0 t
  have hz' : (fun a => win0_7.index t0_0 a * main_v5.ty.shape.size a) = fun _ => 0 := funext fun a => by fin_cases a <;> decide
  exact Memref.read_access_unit_zero (Elt Ideal) main_v5 hz' (fun a => by rw [congrFun hz' a]; simp) (V m c main_v5)

/-! ## The network's parameters out of the kernel's blocks -/

/-- The weight blocks read one row per output unit, the [1, n] bias blocks along their one row, and row `p` of the
    block of rows. -/
abbrev kW1 (x1 : Vec Ideal S256x512 .f32) : Fin 256 → Fin 512 → EReal := fun k a => x1 (ix2 k a)
abbrev kb1 (x2 : Vec Ideal S1x256 .f32) : Fin 256 → EReal := fun k => x2 (ix2 0 k)
abbrev kWih (x3 : Vec Ideal S1024x256 .f32) : Fin 1024 → Fin 256 → EReal := fun n k => x3 (ix2 n k)
abbrev kb (x4 : Vec Ideal S1x1024 .f32) : Fin 1024 → EReal := fun n => x4 (ix2 0 n)
abbrev kW3 (x6 : Vec Ideal S32x256 .f32) : Fin 32 → Fin 256 → EReal := fun j k => x6 (ix2 j k)
abbrev kb3 (x7 : Vec Ideal S1x32 .f32) : Fin 32 → EReal := fun j => x7 (ix2 0 j)
abbrev krow (x0 : Vec Ideal S64x512 .f32) (p : Fin 64) : Fin 512 → EReal := fun a => x0 (ix2 p a)

/-! ## The body's partial loads: rows of the gates' weights, stretches of the two bias rows -/

section Loads
variable (x3 : Vec Ideal S1024x256 .f32) (x4 : Vec Ideal S1x1024 .f32)

/-- Rows 512 + q of the gates' weights and entries 512 + q of a bias row: the cell and output gates' half. -/
abbrev rowGO (q : Fin 512) : Fin 1024 := ⟨512 + q.val, by have := q.isLt; omega⟩

theorem ld_rowsI (k k' : Fin 256) : View.ld x3 r0_3 (ix2 k k') = x3 (ix2 (rowI k) k') := by
  show x3 (r0_3.idx (ix2 k k')) = _
  refine congrArg x3 (funext fun a => Fin.ext ?_)
  match a with
  | ⟨0, _⟩ => show 0 + 1 * k.val = k.val; omega
  | ⟨1, _⟩ => show 0 + 1 * k'.val = k'.val; omega

theorem ld_rowsGO (q : Fin 512) (k' : Fin 256) : View.ld x3 r0_4 (ix2 q k') = x3 (ix2 (rowGO q) k') := by
  show x3 (r0_4.idx (ix2 q k')) = _
  refine congrArg x3 (funext fun a => Fin.ext ?_)
  match a with
  | ⟨0, _⟩ => show 512 + 1 * q.val = 512 + q.val; omega
  | ⟨1, _⟩ => show 0 + 1 * k'.val = k'.val; omega

theorem ld_biasI (k : Fin 256) : View.ld x4 r0_5 (ix2 0 k) = x4 (ix2 0 (rowI k)) := by
  show x4 (r0_5.idx (ix2 0 k)) = _
  refine congrArg x4 (funext fun a => Fin.ext ?_)
  match a with
  | ⟨0, _⟩ => show 0 + 1 * 0 = 0; rfl
  | ⟨1, _⟩ => show 0 + 1 * k.val = k.val; omega

theorem ld_biasGO (q : Fin 512) : View.ld x4 r0_6 (ix2 0 q) = x4 (ix2 0 (rowGO q)) := by
  show x4 (r0_6.idx (ix2 0 q)) = _
  refine congrArg x4 (funext fun a => Fin.ext ?_)
  match a with
  | ⟨0, _⟩ => show 0 + 1 * 0 = 0; rfl
  | ⟨1, _⟩ => show 512 + 1 * q.val = 512 + q.val; omega

end Loads

/-! ## The body, at one entry, is the network on the block row -/

section Body
variable (x0 : Vec Ideal S64x512 .f32) (x1 : Vec Ideal S256x512 .f32) (x2 : Vec Ideal S1x256 .f32)
  (x3 : Vec Ideal S1024x256 .f32) (x4 x5 : Vec Ideal S1x1024 .f32) (x6 : Vec Ideal S32x256 .f32) (x7 : Vec Ideal S1x32 .f32)

open Cert.KernelIdeal.Payloads

theorem hid_blk (p : Fin 64) (k : Fin 256) :
    k0_pay2 x0 x1 x2 (ix2 p k) = hid (kW1 x1) (kb1 x2) (krow x0 p) k := pay2_at x0 x1 x2 p k

/-- The product with rows 512–1023 of the gates' weights, plus entries 512–1023 of the two bias rows added: the cell
    and output gates' pre-activations. -/
theorem gateGO_blk (p : Fin 64) (q : Fin 512) :
    k0_pay3 x0 x1 x2 (View.ld x3 r0_4) (View.ld x4 r0_6) (View.ld x5 r0_6) (ix2 p q)
      = gate (kW1 x1) (kb1 x2) (kWih x3) (kb x4) (kb x5) (krow x0 p) (rowGO q) := by
  rw [pay3_at]
  unfold gate dense
  refine congrArg₂ (· + ·) (Finset.sum_congr rfl fun k _ => ?_) (congrArg₂ (· + ·) (ld_biasGO x4 q) (ld_biasGO x5 q))
  beta_reduce
  rw [hid_blk, ld_rowsGO]

/-- The product with rows 0–255, plus entries 0–255 of the bias rows: the input gate's. -/
theorem gateI_blk (p : Fin 64) (k : Fin 256) :
    dense (fun k k' => View.ld x3 r0_3 (ix2 k k')) (fun k => View.ld x4 r0_5 (ix2 0 k) + View.ld x5 r0_5 (ix2 0 k))
        (fun k' => k0_pay2 x0 x1 x2 (ix2 p k')) k
      = gate (kW1 x1) (kb1 x2) (kWih x3) (kb x4) (kb x5) (krow x0 p) (rowI k) := by
  unfold gate dense
  refine congrArg₂ (· + ·) (Finset.sum_congr rfl fun k' _ => ?_) (congrArg₂ (· + ·) (ld_biasI x4 k) (ld_biasI x5 k))
  beta_reduce
  rw [hid_blk, ld_rowsI]

/-- The LSTM step's output through the ReLU: the second half of the 512 pre-activations is the output gate, the
    first half the cell gate. -/
theorem hout_blk (p : Fin 64) (k : Fin 256) :
    relu (Ideal.logistic (k0_pay4 x0 x1 x2 (View.ld x3 r0_4) (View.ld x4 r0_6) (View.ld x5 r0_6) (ix2 p k))
        * Ideal.tanh (k0_pay5 x0 x1 x2 (View.ld x3 r0_3) (View.ld x4 r0_5) (View.ld x5 r0_5) (ix2 p k)
            * k0_pay6 x0 x1 x2 (View.ld x3 r0_4) (View.ld x4 r0_6) (View.ld x5 r0_6) (ix2 p k)))
      = hout (kW1 x1) (kb1 x2) (kWih x3) (kb x4) (kb x5) (krow x0 p) k := by
  rw [pay4_at, pay5_at, pay6_at, gateGO_blk, gateGO_blk, gateI_blk]
  have eO : rowGO (⟨256 + k.val, by have := k.isLt; omega⟩ : Fin 512) = rowO k :=
    Fin.ext (by show 512 + (256 + k.val) = 768 + k.val; omega)
  have eG : rowGO (⟨k.val, by have := k.isLt; omega⟩ : Fin 512) = rowG k := rfl
  rw [eO, eG]
  rfl

theorem body_at (p : Fin 64) (j : Fin 32) :
    out0_8 x0 x1 x2 x3 x4 x5 x6 x7 (ix2 p j)
      = out (kW1 x1) (kb1 x2) (kWih x3) (kb x4) (kb x5) (kW3 x6) (kb3 x7) (krow x0 p) j := by
  unfold out0_8
  rw [View.canon_unit_zero hz]
  simp only [View.ld_unit_zero (S := S64x512) hz, View.ld_unit_zero (S := S256x512) hz, View.ld_unit_zero (S := S1x256) hz,
    View.ld_unit_zero (S := S32x256) hz, View.ld_unit_zero (S := S1x32) hz]
  rw [pay1_at]
  show softmax _ j = softmax (logit _ _ _ _ _ _ _ _) j
  refine congrArg (fun l => softmax l j) (funext fun j' => ?_)
  unfold logit
  refine congrArg (fun h => dense _ _ h j') (funext fun k => ?_)
  exact hout_blk x0 x1 x2 x3 x4 x5 p k

end Body

/-! ## The result array -/

/-- The network on the kept rows, of the argument arrays as launched. -/
abbrev net (c : Dev nD) : Buf (Elt Ideal) ((c : Thread nD τ).loc main_v6) :=
  network (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg7)) (m ((c : Thread nD τ).loc main_arg8))

/-- Entry `(p, j)` of what the body leaves, from the arrays the region finds: the network's answer `j` for the row
    `x[p, 15, ·, 127]`, with the bias vectors read through their [1, n] views. -/
theorem entry (c : Dev nD) (p : Fin 64) (j : Fin 32) :
    out0_8 (V m c main_v1 : S64x512.Idx → EReal) (V m c main_arg1 : S256x512.Idx → EReal) (V m c main_v2 : S1x256.Idx → EReal)
        (V m c main_arg3 : S1024x256.Idx → EReal) (V m c main_v3 : S1x1024.Idx → EReal) (V m c main_v4 : S1x1024.Idx → EReal)
        (V m c main_arg7 : S32x256.Idx → EReal) (V m c main_v5 : S1x32.Idx → EReal) (ix2 p j)
      = net m c (ix2 p j) := by
  rw [body_at]
  have e0 : krow (V m c main_v1 : S64x512.Idx → EReal) p
      = fun a => (m ((c : Thread nD τ).loc main_arg0) : S64x16x512x128.Idx → EReal) (ix4 p 15 a 127) :=
    funext fun a => V_rows_at m c p a
  have e1 : kW1 (V m c main_arg1 : S256x512.Idx → EReal) = fun k a => (m ((c : Thread nD τ).loc main_arg1) : S256x512.Idx → EReal) (ix2 k a) := by
    rw [V_main_arg1]
  have e2 : kb1 (V m c main_v2 : S1x256.Idx → EReal) = fun k => (m ((c : Thread nD τ).loc main_arg2) : S256.Idx → EReal) (ix1 k) := by
    rw [V_b1]; exact funext fun k => shapeCast_a_1a_apply _ _ 0 k
  have e3 : kWih (V m c main_arg3 : S1024x256.Idx → EReal) = fun n k => (m ((c : Thread nD τ).loc main_arg3) : S1024x256.Idx → EReal) (ix2 n k) := by
    rw [V_main_arg3]
  have e4 : kb (V m c main_v3 : S1x1024.Idx → EReal) = fun n => (m ((c : Thread nD τ).loc main_arg5) : S1024.Idx → EReal) (ix1 n) := by
    rw [V_bih]; exact funext fun n => shapeCast_a_1a_apply _ _ 0 n
  have e5 : kb (V m c main_v4 : S1x1024.Idx → EReal) = fun n => (m ((c : Thread nD τ).loc main_arg6) : S1024.Idx → EReal) (ix1 n) := by
    rw [V_bhh]; exact funext fun n => shapeCast_a_1a_apply _ _ 0 n
  have e6 : kW3 (V m c main_arg7 : S32x256.Idx → EReal) = fun j k => (m ((c : Thread nD τ).loc main_arg7) : S32x256.Idx → EReal) (ix2 j k) := by
    rw [V_main_arg7]
  have e7 : kb3 (V m c main_v5 : S1x32.Idx → EReal) = fun j => (m ((c : Thread nD τ).loc main_arg8) : S32.Idx → EReal) (ix1 j) := by
    rw [V_b3]; exact funext fun j => shapeCast_a_1a_apply _ _ 0 j
  rw [e0, e1, e2, e3, e4, e5, e6, e7]
  rfl

/-- What the one grid point writes back is the whole of `net`: its block is the whole [64, 32] array. -/
theorem flushed_eq (c : Dev nD) (t : Fin cfg0.N) :
    (dats m 0 c).flushed 8 t = ((cfg0.win 8).blk t).view.read (Elt Ideal) (net m c) := by
  rw [flushed8, iblk0, iblk1, iblk2, iblk3, iblk4, iblk5, iblk6, iblk7]
  obtain rfl := fin_N0 t
  have hz' : (fun a => win0_8.index t0_0 a * main_v6.ty.shape.size a) = fun _ => 0 := funext fun a => by fin_cases a <;> decide
  refine Eq.trans ?_ (Memref.read_access_unit_zero (Elt Ideal) main_v6 hz' (fun a => by rw [congrFun hz' a]; simp) (net m c)).symm
  funext i
  obtain ⟨p, j, rfl⟩ : ∃ (p : Fin 64) (j : Fin 32), i = ix2 p j := ⟨i 0, i 1, eq_ix2 i⟩
  exact entry m c p j

/-- So the result array ends at `net`: the one block covers it. -/
theorem final (c : Dev nD) : (dats m 0 c).arrAt 8 cfg0.N = net m c :=
  (dats m 0 c).arrAt_eq_of_cover 8 (net m c) (fun t _ => flushed_eq m c t) fun i =>
    ⟨t0_0, flush0_8 t0_0, by
      show i ∈ ((View.whole main_v6).slice (win0_8.rect t0_0)).set
      rw [View.set_slice_whole, Rect.mem_set_unit]
      intro a
      have h0 : (i 0 : Nat) < 64 := (i 0).isLt
      have h1 : (i 1 : Nat) < 32 := (i 1).isLt
      match a with
      | ⟨0, _⟩ => show win0_8.index t0_0 0 * win0_8.size 0 ≤ (i 0 : Nat) ∧ (i 0 : Nat) < win0_8.index t0_0 0 * win0_8.size 0 + win0_8.xsize (grid0.coords t0_0) 0
                  rw [show win0_8.index t0_0 0 * win0_8.size 0 = 0 from by decide +kernel, show win0_8.xsize (grid0.coords t0_0) 0 = 64 from by decide +kernel]; omega
      | ⟨1, _⟩ => show win0_8.index t0_0 1 * win0_8.size 1 ≤ (i 1 : Nat) ∧ (i 1 : Nat) < win0_8.index t0_0 1 * win0_8.size 1 + win0_8.xsize (grid0.coords t0_0) 1
                  rw [show win0_8.index t0_0 1 * win0_8.size 1 = 0 from by decide +kernel, show win0_8.xsize (grid0.coords t0_0) 1 = 32 from by decide +kernel]; omega⟩

/-- The kernel's run, read: the result array at the network on the kept rows, the arguments unchanged. -/
theorem run : θ_run defs (onTc (τ := τ) (main (F := Ideal))) ⟨m, fun _ => 0, ρ⟩ fun r => ∀ c : Dev nD,
      r.2.mem ((c : Thread nD τ).loc main_v6) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Cert.KernelIdeal.Value.run_blocks m ρ)

end Cert.KernelIdeal.Rows

end
-- ==== Proof.lean ====
/-
  The kernel and its reference compute the same [64, 32] array over the extended reals.

  Both run one small network on rows of 512 numbers: a dense layer with a ReLU, one LSTM step from a zero state
  (the recurrent weights and the forget gate drop out), a ReLU, a dense layer, a softmax — Proof/Spec.lean states
  it for ONE row, and every stage reads that row alone.

  The reference flattens the input [64, 16, 512, 128] (its last two axes exchanged) into 131072 rows, runs the
  network on all of them, and keeps row 2048 p + 2047 for each p — which is x[p, 15, ·, 127] (Proof/RefRows.lean).
  The kernel slices exactly those 64 rows out first and runs the network on them alone, multiplying the hidden
  layer with only the three quarters of the gates' weights that are read (Proof/KerPayloads.lean,
  Proof/KerValue.lean). So both results are `Cert.LstmRow.network` of the argument arrays: the matrix products are
  the same finite sums at this instance, the two spellings of the sigmoid are one function of an extended real,
  the changes of float format are the identity, and no law used needs the inputs finite — the precondition is
  never opened.

  The three frames are the generated ones (the reference's is its generated run with the result dropped); the
  idealization rewrote nothing, so `preserves` is `True`.
-/
import proofs.«131758_j39917426049717_2_alg».proof.Defs
import proofs.«131758_j39917426049717_2_alg».proof.Proof.Gen.Kernel
import proofs.«131758_j39917426049717_2_alg».proof.Proof.Gen.Kernel.Skeleton
import proofs.«131758_j39917426049717_2_alg».proof.Proof.Gen.Kernel.Launch
import proofs.«131758_j39917426049717_2_alg».proof.Proof.Gen.Kernel.Points
import proofs.«131758_j39917426049717_2_alg».proof.Proof.Gen.Kernel.Frame
import proofs.«131758_j39917426049717_2_alg».proof.Proof.Gen.KernelIdeal
import proofs.«131758_j39917426049717_2_alg».proof.Proof.Gen.KernelIdeal.Skeleton
import proofs.«131758_j39917426049717_2_alg».proof.Proof.Gen.KernelIdeal.Launch
import proofs.«131758_j39917426049717_2_alg».proof.Proof.Gen.KernelIdeal.Points
import proofs.«131758_j39917426049717_2_alg».proof.Proof.Gen.KernelIdeal.Frame
import proofs.«131758_j39917426049717_2_alg».proof.Proof.Gen.ReferenceIdeal
import proofs.«131758_j39917426049717_2_alg».proof.Proof.Gen.Pre_finite_inputs
import proofs.«131758_j39917426049717_2_alg».proof.Proof.Gen.KernelIdeal.Value
import proofs.«131758_j39917426049717_2_alg».proof.Proof.Gen.ReferenceIdeal.Run
import proofs.«131758_j39917426049717_2_alg».proof.Proof.Gen.ReferenceIdeal.Read
import proofs.«131758_j39917426049717_2_alg».proof.Proof.RefRows
import proofs.«131758_j39917426049717_2_alg».proof.Proof.KerValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the network on the rows `x[p, 15, ·, 127]`, of arguments that agree. -/
theorem algebraic : Cert.algebraic_KernelIdeal_ReferenceIdeal := by
  intro m ρ m' ρ' _ hagree
  refine ⟨fun c => Cert.KernelIdeal.Rows.net m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.Rows.value]
  obtain ⟨h0, h1, h2, h3, _, h5, h6, h7, h8⟩ := hagree c
  rw [h0, h1, h2, h3, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
